-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x128 : Shape := ⟨2, ![65536, 128]⟩
abbrev S1024x128 : Shape := ⟨2, ![1024, 128]⟩
abbrev S1024 : Shape := ⟨1, ![1024]⟩
abbrev S8x128 : Shape := ⟨2, ![8, 128]⟩
abbrev S8x128x128 : Shape := ⟨3, ![8, 128, 128]⟩
abbrev S_ : Shape := ⟨0, ![]⟩

class Facts : Prop where
  bcast_S_S65536x128 : S_.BroadcastsInDim S65536x128 (![] : Fin 0 → Fin S65536x128.rank)
  reducesTo_S65536x128_S_d0_1 : S65536x128.ReducesTo [0, 1] S_
  h_S_ : 0 < S_.numel
  bcast_S_S1024x128 : S_.BroadcastsInDim S1024x128 (![] : Fin 0 → Fin S1024x128.rank)
  reducesTo_S1024x128_S_d0_1 : S1024x128.ReducesTo [0, 1] S_
  bcast_S_S1024 : S_.BroadcastsInDim S1024 (![] : Fin 0 → Fin S1024.rank)
  reducesTo_S1024_S_d0 : S1024.ReducesTo [0] S_
  bcast_S_S8x128 : S_.BroadcastsInDim S8x128 (![] : Fin 0 → Fin S8x128.rank)
  reducesTo_S8x128_S_d0_1 : S8x128.ReducesTo [0, 1] S_
  bcast_S_S8x128x128 : S_.BroadcastsInDim S8x128x128 (![] : Fin 0 → Fin S8x128x128.rank)
  reducesTo_S8x128x128_S_d0_1_2 : S8x128x128.ReducesTo [0, 1, 2] S_

variable [Facts]

def fn_part3 {F : FTy → Type} [FloatOps F] (main_v48 : IVec S_ 1) (main_v49 : FVec F S8x128 .f32) (main_v50 : FVec F S8x128 .f32) : IVec S_ 1 :=
  let main_v51 : IVec S8x128 1 := cmpf .olt main_v49 main_v50
  let main_c_19 : IVec S_ 1 := constantI S_ 1 1#1
  let main_v52 : IVec S_ 1 := (fun x v => Host.reduce IntOp.andi x v reducesTo_S8x128_S_d0_1 h_S_) main_v51 main_c_19
  let main_v53 : IVec S_ 1 := andi main_v48 main_v52
  main_v53

def fn_part2 {F : FTy → Type} [FloatOps F] (main_arg7 : FVec F S8x128 .f32) (main_arg8 : FVec F S8x128 .f32) (main_arg9 : FVec F S8x128x128 .f32) (main_arg10 : FVec F S8x128 .f32) (main_v33 : IVec S_ 1) : IVec S_ 1 :=
  let main_v34 : FVec F S8x128 .f32 := Host.absf main_arg7
  let main_cst_12 : FVec F S_ .f32 := constant S_ .f32 0x7F800000#32
  let main_v35 : FVec F S8x128 .f32 := broadcastInDim S8x128 ![] bcast_S_S8x128 main_cst_12
  let main_v36 : IVec S8x128 1 := cmpf .olt main_v34 main_v35
  let main_c_13 : IVec S_ 1 := constantI S_ 1 1#1
  let main_v37 : IVec S_ 1 := (fun x v => Host.reduce IntOp.andi x v reducesTo_S8x128_S_d0_1 h_S_) main_v36 main_c_13
  let main_v38 : IVec S_ 1 := andi main_v33 main_v37
  let main_v39 : FVec F S8x128 .f32 := Host.absf main_arg8
  let main_cst_14 : FVec F S_ .f32 := constant S_ .f32 0x7F800000#32
  let main_v40 : FVec F S8x128 .f32 := broadcastInDim S8x128 ![] bcast_S_S8x128 main_cst_14
  let main_v41 : IVec S8x128 1 := cmpf .olt main_v39 main_v40
  let main_c_15 : IVec S_ 1 := constantI S_ 1 1#1
  let main_v42 : IVec S_ 1 := (fun x v => Host.reduce IntOp.andi x v reducesTo_S8x128_S_d0_1 h_S_) main_v41 main_c_15
  let main_v43 : IVec S_ 1 := andi main_v38 main_v42
  let main_v44 : FVec F S8x128x128 .f32 := Host.absf main_arg9
  let main_cst_16 : FVec F S_ .f32 := constant S_ .f32 0x7F800000#32
  let main_v45 : FVec F S8x128x128 .f32 := broadcastInDim S8x128x128 ![] bcast_S_S8x128x128 main_cst_16
  let main_v46 : IVec S8x128x128 1 := cmpf .olt main_v44 main_v45
  let main_c_17 : IVec S_ 1 := constantI S_ 1 1#1
  let main_v47 : IVec S_ 1 := (fun x v => Host.reduce IntOp.andi x v reducesTo_S8x128x128_S_d0_1_2 h_S_) main_v46 main_c_17
  let main_v48 : IVec S_ 1 := andi main_v43 main_v47
  let main_v49 : FVec F S8x128 .f32 := Host.absf main_arg10
  let main_cst_18 : FVec F S_ .f32 := constant S_ .f32 0x7F800000#32
  let main_v50 : FVec F S8x128 .f32 := broadcastInDim S8x128 ![] bcast_S_S8x128 main_cst_18
  fn_part3 (F := F) main_v48 main_v49 main_v50

def fn_part1 {F : FTy → Type} [FloatOps F] (main_arg4 : FVec F S8x128 .f32) (main_arg5 : FVec F S8x128x128 .f32) (main_arg6 : FVec F S8x128 .f32) (main_arg7 : FVec F S8x128 .f32) (main_arg8 : FVec F S8x128 .f32) (main_arg9 : FVec F S8x128x128 .f32) (main_arg10 : FVec F S8x128 .f32) (main_v13 : IVec S_ 1) (main_v16 : IVec S8x128 1) : IVec S_ 1 :=
  let main_c_5 : IVec S_ 1 := constantI S_ 1 1#1
  let main_v17 : IVec S_ 1 := (fun x v => Host.reduce IntOp.andi x v reducesTo_S8x128_S_d0_1 h_S_) main_v16 main_c_5
  let main_v18 : IVec S_ 1 := andi main_v13 main_v17
  let main_v19 : FVec F S8x128 .f32 := Host.absf main_arg4
  let main_cst_6 : FVec F S_ .f32 := constant S_ .f32 0x7F800000#32
  let main_v20 : FVec F S8x128 .f32 := broadcastInDim S8x128 ![] bcast_S_S8x128 main_cst_6
  let main_v21 : IVec S8x128 1 := cmpf .olt main_v19 main_v20
  let main_c_7 : IVec S_ 1 := constantI S_ 1 1#1
  let main_v22 : IVec S_ 1 := (fun x v => Host.reduce IntOp.andi x v reducesTo_S8x128_S_d0_1 h_S_) main_v21 main_c_7
  let main_v23 : IVec S_ 1 := andi main_v18 main_v22
  let main_v24 : FVec F S8x128x128 .f32 := Host.absf main_arg5
  let main_cst_8 : FVec F S_ .f32 := constant S_ .f32 0x7F800000#32
  let main_v25 : FVec F S8x128x128 .f32 := broadcastInDim S8x128x128 ![] bcast_S_S8x128x128 main_cst_8
  let main_v26 : IVec S8x128x128 1 := cmpf .olt main_v24 main_v25
  let main_c_9 : IVec S_ 1 := constantI S_ 1 1#1
  let main_v27 : IVec S_ 1 := (fun x v => Host.reduce IntOp.andi x v reducesTo_S8x128x128_S_d0_1_2 h_S_) main_v26 main_c_9
  let main_v28 : IVec S_ 1 := andi main_v23 main_v27
  let main_v29 : FVec F S8x128 .f32 := Host.absf main_arg6
  let main_cst_10 : FVec F S_ .f32 := constant S_ .f32 0x7F800000#32
  let main_v30 : FVec F S8x128 .f32 := broadcastInDim S8x128 ![] bcast_S_S8x128 main_cst_10
  let main_v31 : IVec S8x128 1 := cmpf .olt main_v29 main_v30
  let main_c_11 : IVec S_ 1 := constantI S_ 1 1#1
  let main_v32 : IVec S_ 1 := (fun x v => Host.reduce IntOp.andi x v reducesTo_S8x128_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S65536x128 .f32) (main_arg1 : FVec F S1024x128 .f32) (main_arg2 : FVec F S1024 .f32) (main_arg3 : FVec F S8x128 .f32) (main_arg4 : FVec F S8x128 .f32) (main_arg5 : FVec F S8x128x128 .f32) (main_arg6 : FVec F S8x128 .f32) (main_arg7 : FVec F S8x128 .f32) (main_arg8 : FVec F S8x128 .f32) (main_arg9 : FVec F S8x128x128 .f32) (main_arg10 : FVec F S8x128 .f32) : IVec S_ 1 :=
  let main_v0 : FVec F S65536x128 .f32 := Host.absf main_arg0
  let main_cst : FVec F S_ .f32 := constant S_ .f32 0x7F800000#32
  let main_v1 : FVec F S65536x128 .f32 := broadcastInDim S65536x128 ![] bcast_S_S65536x128 main_cst
  let main_v2 : IVec S65536x128 1 := cmpf .olt main_v0 main_v1
  let main_c : IVec S_ 1 := constantI S_ 1 1#1
  let main_v3 : IVec S_ 1 := (fun x v => Host.reduce IntOp.andi x v reducesTo_S65536x128_S_d0_1 h_S_) main_v2 main_c
  let main_v4 : FVec F S1024x128 .f32 := Host.absf main_arg1
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S8x128 .f32 := Host.absf main_arg3
  let main_cst_4 : FVec F S_ .f32 := constant S_ .f32 0x7F800000#32
  let main_v15 : FVec F S8x128 .f32 := broadcastInDim S8x128 ![] bcast_S_S8x128 main_cst_4
  let main_v16 : IVec S8x128 1 := cmpf .olt main_v14 main_v15
  fn_part1 (F := F) main_arg4 main_arg5 main_arg6 main_arg7 main_arg8 main_arg9 main_arg10 main_v13 main_v16
-- ==== Kernel.lean ====
abbrev S65536x128 : Shape := ⟨2, ![65536, 128]⟩
abbrev S1024x128 : Shape := ⟨2, ![1024, 128]⟩
abbrev S1024 : Shape := ⟨1, ![1024]⟩
abbrev S8x128 : Shape := ⟨2, ![8, 128]⟩
abbrev S8x128x128 : Shape := ⟨3, ![8, 128, 128]⟩
abbrev S128x1024 : Shape := ⟨2, ![128, 1024]⟩
abbrev S1x1024 : Shape := ⟨2, ![1, 1024]⟩
abbrev S8x65536x128 : Shape := ⟨3, ![8, 65536, 128]⟩
abbrev S8x1024x128 : Shape := ⟨3, ![8, 1024, 128]⟩
abbrev S1024x1024 : Shape := ⟨2, ![1024, 1024]⟩
abbrev S1024x1 : Shape := ⟨2, ![1024, 1]⟩
abbrev S1x128 : Shape := ⟨2, ![1, 128]⟩
abbrev S128 : Shape := ⟨1, ![128]⟩
abbrev S1x128x128 : Shape := ⟨3, ![1, 128, 128]⟩
abbrev S128x128 : Shape := ⟨2, ![128, 128]⟩
abbrev S1x1024x128 : Shape := ⟨3, ![1, 1024, 128]⟩

abbrev nBuf : Space → Nat
  | .hbm => 19
  | .vmem => 14
  | .smem => 0
  | _ => 0

abbrev bufTy : (tb : Table) → Fin (tcTables nBuf tb) → BufTy
  | .hbm, ⟨0, _⟩ => ⟨S65536x128, .f32⟩
  | .hbm, ⟨1, _⟩ => ⟨S1024x128, .f32⟩
  | .hbm, ⟨2, _⟩ => ⟨S1024, .f32⟩
  | .hbm, ⟨3, _⟩ => ⟨S8x128, .f32⟩
  | .hbm, ⟨4, _⟩ => ⟨S8x128, .f32⟩
  | .hbm, ⟨5, _⟩ => ⟨S8x128x128, .f32⟩
  | .hbm, ⟨6, _⟩ => ⟨S8x128, .f32⟩
  | .hbm, ⟨7, _⟩ => ⟨S8x128, .f32⟩
  | .hbm, ⟨8, _⟩ => ⟨S8x128, .f32⟩
  | .hbm, ⟨9, _⟩ => ⟨S8x128x128, .f32⟩
  | .hbm, ⟨10, _⟩ => ⟨S8x128, .f32⟩
  | .hbm, ⟨11, _⟩ => ⟨S128x1024, .f32⟩
  | .hbm, ⟨12, _⟩ => ⟨S128x1024, .bf16⟩
  | .hbm, ⟨13, _⟩ => ⟨S1x1024, .f32⟩
  | .hbm, ⟨14, _⟩ => ⟨S8x128x128, .f32⟩
  | .hbm, ⟨15, _⟩ => ⟨S8x128x128, .bf16⟩
  | .hbm, ⟨16, _⟩ => ⟨S8x128x128, .f32⟩
  | .hbm, ⟨17, _⟩ => ⟨S8x128x128, .bf16⟩
  | .hbm, ⟨18, _⟩ => ⟨S8x65536x128, .f32⟩
  | .local _ .vmem, ⟨0, _⟩ => ⟨S1024x128, .f32⟩
  | .local _ .vmem, ⟨1, _⟩ => ⟨S1024x128, .f32⟩
  | .local _ .vmem, ⟨2, _⟩ => ⟨S128x1024, .bf16⟩
  | .local _ .vmem, ⟨3, _⟩ => ⟨S1x1024, .f32⟩
  | .local _ .vmem, ⟨4, _⟩ => ⟨S8x128, .f32⟩
  | .local _ .vmem, ⟨5, _⟩ => ⟨S8x128, .f32⟩
  | .local _ .vmem, ⟨6, _⟩ => ⟨S8x128x128, .bf16⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S8x128x128, .bf16⟩
  | .local _ .vmem, ⟨11, _⟩ => ⟨S8x128, .f32⟩
  | .local _ .vmem, ⟨12, _⟩ => ⟨S8x1024x128, .f32⟩
  | .local _ .vmem, ⟨13, _⟩ => ⟨S8x1024x128, .f32⟩
  | _, _ => ⟨S65536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S8x1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  transposes_S1024x128_S128x1024_1_0 : S1024x128.Transposes [1, 0] S128x1024
  bitsLt_bf16_f32 : FTy.bits .bf16 < FTy.bits .f32
  shapeCasts_S1024_S1x1024 : S1024.ShapeCasts S1x1024
  transposes_S8x128x128_S8x128x128_0_2_1 : S8x128x128.Transposes [0, 2, 1] S8x128x128
  inb_S1024x128_S1024x128_0_0 : ∀ a, (![0, 0] : Fin 2 → Nat) a + S1024x128.size a ≤ S1024x128.size a
  h_S1024x128 : 0 < S1024x128.numel
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  slices_S1024x1024_o0_0_S1024x128 : S1024x1024.Slices ![0, 0] S1024x128
  reduces_S1024x128_S1024 : S1024x128.Reduces [1] S1024
  shapeCasts_S1024_S1024x1 : S1024.ShapeCasts S1024x1
  broadcasts_S1024x1_S1024x128 : S1024x1.Broadcasts S1024x128
  inb_S8x128_S1x128_0_0 : ∀ a, (![0, 0] : Fin 2 → Nat) a + S1x128.size a ≤ S8x128.size a
  h_S1x128 : 0 < S1x128.numel
  shapeCasts_S1x128_S128 : S1x128.ShapeCasts S128
  shapeCasts_S128_S1x128 : S128.ShapeCasts S1x128
  broadcasts_S1x128_S1024x128 : S1x128.Broadcasts S1024x128
  inb_S8x128x128_S1x128x128_0_0_0 : ∀ a, (![0, 0, 0] : Fin 3 → Nat) a + S1x128x128.size a ≤ S8x128x128.size a
  h_S1x128x128 : 0 < S1x128x128.numel
  shapeCasts_S1x128x128_S128x128 : S1x128x128.ShapeCasts S128x128
  inb_S8x1024x128_S1x1024x128_0_0_0 : ∀ a, (![0, 0, 0] : Fin 3 → Nat) a + S1x1024x128.size a ≤ S8x1024x128.size a
  h_S1x1024x128 : 0 < S1x1024x128.numel
  shapeCasts_S1x1024x128_S1024x128 : S1x1024x128.ShapeCasts S1024x128
  shapeCasts_S1024x128_S1x1024x128 : S1024x128.ShapeCasts S1x1024x128
  slices_S1024x1024_o0_128_S1024x128 : S1024x1024.Slices ![0, 128] S1024x128
  inb_S8x128_S1x128_1_0 : ∀ a, (![1, 0] : Fin 2 → Nat) a + S1x128.size a ≤ S8x128.size a
  inb_S8x128x128_S1x128x128_1_0_0 : ∀ a, (![1, 0, 0] : Fin 3 → Nat) a + S1x128x128.size a ≤ S8x128x128.size a
  inb_S8x1024x128_S1x1024x128_1_0_0 : ∀ a, (![1, 0, 0] : Fin 3 → Nat) a + S1x1024x128.size a ≤ S8x1024x128.size a
  slices_S1024x1024_o0_256_S1024x128 : S1024x1024.Slices ![0, 256] S1024x128
  inb_S8x128_S1x128_2_0 : ∀ a, (![2, 0] : Fin 2 → Nat) a + S1x128.size a ≤ S8x128.size a
  inb_S8x128x128_S1x128x128_2_0_0 : ∀ a, (![2, 0, 0] : Fin 3 → Nat) a + S1x128x128.size a ≤ S8x128x128.size a
  inb_S8x1024x128_S1x1024x128_2_0_0 : ∀ a, (![2, 0, 0] : Fin 3 → Nat) a + S1x1024x128.size a ≤ S8x1024x128.size a
  slices_S1024x1024_o0_384_S1024x128 : S1024x1024.Slices ![0, 384] S1024x128
  inb_S8x128_S1x128_3_0 : ∀ a, (![3, 0] : Fin 2 → Nat) a + S1x128.size a ≤ S8x128.size a
  inb_S8x128x128_S1x128x128_3_0_0 : ∀ a, (![3, 0, 0] : Fin 3 → Nat) a + S1x128x128.size a ≤ S8x128x128.size a
  inb_S8x1024x128_S1x1024x128_3_0_0 : ∀ a, (![3, 0, 0] : Fin 3 → Nat) a + S1x1024x128.size a ≤ S8x1024x128.size a
  slices_S1024x1024_o0_512_S1024x128 : S1024x1024.Slices ![0, 512] S1024x128
  inb_S8x128_S1x128_4_0 : ∀ a, (![4, 0] : Fin 2 → Nat) a + S1x128.size a ≤ S8x128.size a
  inb_S8x128x128_S1x128x128_4_0_0 : ∀ a, (![4, 0, 0] : Fin 3 → Nat) a + S1x128x128.size a ≤ S8x128x128.size a
  inb_S8x1024x128_S1x1024x128_4_0_0 : ∀ a, (![4, 0, 0] : Fin 3 → Nat) a + S1x1024x128.size a ≤ S8x1024x128.size a
  slices_S1024x1024_o0_640_S1024x128 : S1024x1024.Slices ![0, 640] S1024x128
  inb_S8x128_S1x128_5_0 : ∀ a, (![5, 0] : Fin 2 → Nat) a + S1x128.size a ≤ S8x128.size a
  inb_S8x128x128_S1x128x128_5_0_0 : ∀ a, (![5, 0, 0] : Fin 3 → Nat) a + S1x128x128.size a ≤ S8x128x128.size a
  inb_S8x1024x128_S1x1024x128_5_0_0 : ∀ a, (![5, 0, 0] : Fin 3 → Nat) a + S1x1024x128.size a ≤ S8x1024x128.size a
  slices_S1024x1024_o0_768_S1024x128 : S1024x1024.Slices ![0, 768] S1024x128
  inb_S8x128_S1x128_6_0 : ∀ a, (![6, 0] : Fin 2 → Nat) a + S1x128.size a ≤ S8x128.size a
  inb_S8x128x128_S1x128x128_6_0_0 : ∀ a, (![6, 0, 0] : Fin 3 → Nat) a + S1x128x128.size a ≤ S8x128x128.size a
  inb_S8x1024x128_S1x1024x128_6_0_0 : ∀ a, (![6, 0, 0] : Fin 3 → Nat) a + S1x1024x128.size a ≤ S8x1024x128.size a
  slices_S1024x1024_o0_896_S1024x128 : S1024x1024.Slices ![0, 896] S1024x128
  inb_S8x128_S1x128_7_0 : ∀ a, (![7, 0] : Fin 2 → Nat) a + S1x128.size a ≤ S8x128.size a
  inb_S8x128x128_S1x128x128_7_0_0 : ∀ a, (![7, 0, 0] : Fin 3 → Nat) a + S1x128x128.size a ≤ S8x128x128.size a
  inb_S8x1024x128_S1x1024x128_7_0_0 : ∀ a, (![7, 0, 0] : Fin 3 → Nat) a + S1x1024x128.size a ≤ S8x1024x128.size a
  dot_S1024x128_S128x1024_S1024x1024_1_0_0_1_n_n_wf : DotDims.WF S1024x128 S128x1024 S1024x1024 [1] [0] [0] [1] [] []
  dot_S1024x128_S128x128_S1024x128_1_0_0_1_n_n_wf : DotDims.WF S1024x128 S128x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S65536x128.size a
  hwx0_0 : ∀ i : grid0.Coords, EltTy.bits .f32 = 32 ∨ (Rect.block (s := S65536x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S128x1024.size a
  hwx0_1 : ∀ i : grid0.Coords, EltTy.bits .bf16 = 32 ∨ (Rect.block (s := S128x1024) S128x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S8x128.size a
  hwx0_3 : ∀ i : grid0.Coords, EltTy.bits .f32 = 32 ∨ (Rect.block (s := S8x128) S8x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S8x128.size a
  hwx0_4 : ∀ i : grid0.Coords, EltTy.bits .f32 = 32 ∨ (Rect.block (s := S8x128) S8x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x128x128.size a ≤ S8x128x128.size a
  hwx0_5 : ∀ i : grid0.Coords, EltTy.bits .bf16 = 32 ∨ (Rect.block (s := S8x128x128) S8x128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S8x128.size a ≤ S8x128.size a
  hwx0_6 : ∀ i : grid0.Coords, EltTy.bits .f32 = 32 ∨ (Rect.block (s := S8x128) S8x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S8x128.size a ≤ S8x128.size a
  hwx0_7 : ∀ i : grid0.Coords, EltTy.bits .f32 = 32 ∨ (Rect.block (s := S8x128) S8x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S8x128.size a ≤ S8x128.size a
  hwx0_8 : ∀ i : grid0.Coords, EltTy.bits .f32 = 32 ∨ (Rect.block (s := S8x128) S8x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S8x128x128.size a ≤ S8x128x128.size a
  hwx0_9 : ∀ i : grid0.Coords, EltTy.bits .bf16 = 32 ∨ (Rect.block (s := S8x128x128) S8x128x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S8x128.size a ≤ S8x128.size a
  hwx0_10 : ∀ i : grid0.Coords, EltTy.bits .f32 = 32 ∨ (Rect.block (s := S8x128) S8x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S8x1024x128.size a ≤ S8x65536x128.size a
  hwx0_11 : ∀ i : grid0.Coords, EltTy.bits .f32 = 32 ∨ (Rect.block (s := S8x65536x128) S8x1024x128.size (cc0_transform_11 i) (hinb0_11 i)).WholeWords (EltTy.packing .f32)

variable [Facts₀]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S8x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S8x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S8x128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S8x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S8x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S8x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6) S8x128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S8x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v7) S8x1024x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S65536x128 : Shape := ⟨2, ![65536, 128]⟩
abbrev S1024x128 : Shape := ⟨2, ![1024, 128]⟩
abbrev S1024 : Shape := ⟨1, ![1024]⟩
abbrev S8x128 : Shape := ⟨2, ![8, 128]⟩
abbrev S8x128x128 : Shape := ⟨3, ![8, 128, 128]⟩
abbrev S128x1024 : Shape := ⟨2, ![128, 1024]⟩
abbrev S65536x1024 : Shape := ⟨2, ![65536, 1024]⟩
abbrev S1x1024 : Shape := ⟨2, ![1, 1024]⟩
abbrev S65536x8x128 : Shape := ⟨3, ![65536, 8, 128]⟩
abbrev S8x65536x128 : Shape := ⟨3, ![8, 65536, 128]⟩
abbrev S_ : Shape := ⟨0, ![]⟩
abbrev S8x65536 : Shape := ⟨2, ![8, 65536]⟩
abbrev S8x65536x1 : Shape := ⟨3, ![8, 65536, 1]⟩
abbrev S8x1x128 : Shape := ⟨3, ![8, 1, 128]⟩

abbrev nBuf : Space → Nat
  | .hbm => 102
  | .vmem => 0
  | .smem => 0
  | _ => 0

abbrev bufTy : (tb : Table) → Fin (tcTables nBuf tb) → BufTy
  | .hbm, ⟨0, _⟩ => ⟨S65536x128, .f32⟩
  | .hbm, ⟨1, _⟩ => ⟨S1024x128, .f32⟩
  | .hbm, ⟨2, _⟩ => ⟨S1024, .f32⟩
  | .hbm, ⟨3, _⟩ => ⟨S8x128, .f32⟩
  | .hbm, ⟨4, _⟩ => ⟨S8x128, .f32⟩
  | .hbm, ⟨5, _⟩ => ⟨S8x128x128, .f32⟩
  | .hbm, ⟨6, _⟩ => ⟨S8x128, .f32⟩
  | .hbm, ⟨7, _⟩ => ⟨S8x128, .f32⟩
  | .hbm, ⟨8, _⟩ => ⟨S8x128, .f32⟩
  | .hbm, ⟨9, _⟩ => ⟨S8x128x128, .f32⟩
  | .hbm, ⟨10, _⟩ => ⟨S8x128, .f32⟩
  | .hbm, ⟨11, _⟩ => ⟨S128x1024, .f32⟩
  | .hbm, ⟨12, _⟩ => ⟨S65536x1024, .f32⟩
  | .hbm, ⟨13, _⟩ => ⟨S1x1024, .f32⟩
  | .hbm, ⟨14, _⟩ => ⟨S65536x1024, .f32⟩
  | .hbm, ⟨15, _⟩ => ⟨S65536x1024, .f32⟩
  | .hbm, ⟨16, _⟩ => ⟨S65536x8x128, .f32⟩
  | .hbm, ⟨17, _⟩ => ⟨S8x65536x128, .f32⟩
  | .hbm, ⟨18, _⟩ => ⟨S_, .f32⟩
  | .hbm, ⟨19, _⟩ => ⟨S8x65536, .f32⟩
  | .hbm, ⟨20, _⟩ => ⟨S8x65536x1, .f32⟩
  | .hbm, ⟨21, _⟩ => ⟨S_, .f32⟩
  | .hbm, ⟨22, _⟩ => ⟨S8x65536x1, .f32⟩
  | .hbm, ⟨23, _⟩ => ⟨S8x65536x1, .f32⟩
  | .hbm, ⟨24, _⟩ => ⟨S8x65536x128, .f32⟩
  | .hbm, ⟨25, _⟩ => ⟨S8x65536x128, .f32⟩
  | .hbm, ⟨26, _⟩ => ⟨S8x65536x128, .f32⟩
  | .hbm, ⟨27, _⟩ => ⟨S_, .f32⟩
  | .hbm, ⟨28, _⟩ => ⟨S8x65536, .f32⟩
  | .hbm, ⟨29, _⟩ => ⟨S8x65536x1, .f32⟩
  | .hbm, ⟨30, _⟩ => ⟨S_, .f32⟩
  | .hbm, ⟨31, _⟩ => ⟨S8x65536x1, .f32⟩
  | .hbm, ⟨32, _⟩ => ⟨S8x65536x1, .f32⟩
  | .hbm, ⟨33, _⟩ => ⟨S8x65536x128, .f32⟩
  | .hbm, ⟨34, _⟩ => ⟨S8x65536x128, .f32⟩
  | .hbm, ⟨35, _⟩ => ⟨S_, .f32⟩
  | .hbm, ⟨36, _⟩ => ⟨S8x65536x1, .f32⟩
  | .hbm, ⟨37, _⟩ => ⟨S8x65536x1, .f32⟩
  | .hbm, ⟨38, _⟩ => ⟨S8x65536x1, .f32⟩
  | .hbm, ⟨39, _⟩ => ⟨S8x65536x128, .f32⟩
  | .hbm, ⟨40, _⟩ => ⟨S8x65536x128, .f32⟩
  | .hbm, ⟨41, _⟩ => ⟨S8x1x128, .f32⟩
  | .hbm, ⟨42, _⟩ => ⟨S8x65536x128, .f32⟩
  | .hbm, ⟨43, _⟩ => ⟨S8x65536x128, .f32⟩
  | .hbm, ⟨44, _⟩ => ⟨S8x1x128, .f32⟩
  | .hbm, ⟨45, _⟩ => ⟨S8x65536x128, .f32⟩
  | .hbm, ⟨46, _⟩ => ⟨S8x65536x128, .f32⟩
  | .hbm, ⟨47, _⟩ => ⟨S8x65536x128, .f32⟩
  | .hbm, ⟨48, _⟩ => ⟨S8x65536x128, .f32⟩
  | .hbm, ⟨49, _⟩ => ⟨S_, .f32⟩
  | .hbm, ⟨50, _⟩ => ⟨S8x65536x128, .f32⟩
  | .hbm, ⟨51, _⟩ => ⟨S8x65536x128, .f32⟩
  | .hbm, ⟨52, _⟩ => ⟨S_, .f32⟩
  | .hbm, ⟨53, _⟩ => ⟨S8x65536x128, .f32⟩
  | .hbm, ⟨54, _⟩ => ⟨S8x65536x128, .f32⟩
  | .hbm, ⟨55, _⟩ => ⟨S8x65536x128, .f32⟩
  | .hbm, ⟨56, _⟩ => ⟨S8x65536x128, .f32⟩
  | .hbm, ⟨57, _⟩ => ⟨S8x1x128, .f32⟩
  | .hbm, ⟨58, _⟩ => ⟨S8x65536x128, .f32⟩
  | .hbm, ⟨59, _⟩ => ⟨S8x65536x128, .f32⟩
  | .hbm, ⟨60, _⟩ => ⟨S_, .f32⟩
  | .hbm, ⟨61, _⟩ => ⟨S8x65536, .f32⟩
  | .hbm, ⟨62, _⟩ => ⟨S8x65536x1, .f32⟩
  | .hbm, ⟨63, _⟩ => ⟨S_, .f32⟩
  | .hbm, ⟨64, _⟩ => ⟨S8x65536x1, .f32⟩
  | .hbm, ⟨65, _⟩ => ⟨S8x65536x1, .f32⟩
  | .hbm, ⟨66, _⟩ => ⟨S8x65536x128, .f32⟩
  | .hbm, ⟨67, _⟩ => ⟨S8x65536x128, .f32⟩
  | .hbm, ⟨68, _⟩ => ⟨S8x65536x128, .f32⟩
  | .hbm, ⟨69, _⟩ => ⟨S_, .f32⟩
  | .hbm, ⟨70, _⟩ => ⟨S8x65536, .f32⟩
  | .hbm, ⟨71, _⟩ => ⟨S8x65536x1, .f32⟩
  | .hbm, ⟨72, _⟩ => ⟨S_, .f32⟩
  | .hbm, ⟨73, _⟩ => ⟨S8x65536x1, .f32⟩
  | .hbm, ⟨74, _⟩ => ⟨S8x65536x1, .f32⟩
  | .hbm, ⟨75, _⟩ => ⟨S8x65536x128, .f32⟩
  | .hbm, ⟨76, _⟩ => ⟨S8x65536x128, .f32⟩
  | .hbm, ⟨77, _⟩ => ⟨S_, .f32⟩
  | .hbm, ⟨78, _⟩ => ⟨S8x65536x1, .f32⟩
  | .hbm, ⟨79, _⟩ => ⟨S8x65536x1, .f32⟩
  | .hbm, ⟨80, _⟩ => ⟨S8x65536x1, .f32⟩
  | .hbm, ⟨81, _⟩ => ⟨S8x65536x128, .f32⟩
  | .hbm, ⟨82, _⟩ => ⟨S8x65536x128, .f32⟩
  | .hbm, ⟨83, _⟩ => ⟨S8x1x128, .f32⟩
  | .hbm, ⟨84, _⟩ => ⟨S8x65536x128, .f32⟩
  | .hbm, ⟨85, _⟩ => ⟨S8x65536x128, .f32⟩
  | .hbm, ⟨86, _⟩ => ⟨S8x1x128, .f32⟩
  | .hbm, ⟨87, _⟩ => ⟨S8x65536x128, .f32⟩
  | .hbm, ⟨88, _⟩ => ⟨S8x65536x128, .f32⟩
  | .hbm, ⟨89, _⟩ => ⟨S8x65536x128, .f32⟩
  | .hbm, ⟨90, _⟩ => ⟨S8x65536x128, .f32⟩
  | .hbm, ⟨91, _⟩ => ⟨S_, .f32⟩
  | .hbm, ⟨92, _⟩ => ⟨S8x65536x128, .f32⟩
  | .hbm, ⟨93, _⟩ => ⟨S8x65536x128, .f32⟩
  | .hbm, ⟨94, _⟩ => ⟨S_, .f32⟩
  | .hbm, ⟨95, _⟩ => ⟨S8x65536x128, .f32⟩
  | .hbm, ⟨96, _⟩ => ⟨S8x65536x128, .f32⟩
  | .hbm, ⟨97, _⟩ => ⟨S8x65536x128, .f32⟩
  | .hbm, ⟨98, _⟩ => ⟨S8x65536x128, .f32⟩
  | .hbm, ⟨99, _⟩ => ⟨S8x1x128, .f32⟩
  | .hbm, ⟨100, _⟩ => ⟨S8x65536x128, .f32⟩
  | .hbm, ⟨101, _⟩ => ⟨S8x65536x128, .f32⟩
  | _, _ => ⟨S65536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_4 : Ref sig .tc := ⟨.hbm, 60, rfl⟩
abbrev main_v36 : Ref sig .tc := ⟨.hbm, 61, rfl⟩
abbrev main_v37 : Ref sig .tc := ⟨.hbm, 62, rfl⟩
abbrev main_cst_5 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_6 : Ref sig .tc := ⟨.hbm, 69, rfl⟩
abbrev main_v43 : Ref sig .tc := ⟨.hbm, 70, rfl⟩
abbrev main_v44 : Ref sig .tc := ⟨.hbm, 71, rfl⟩
abbrev main_cst_7 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_8 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_call1_v0 : Ref sig .tc := ⟨.hbm, 89, rfl⟩
abbrev main_call1_v1 : Ref sig .tc := ⟨.hbm, 90, rfl⟩
abbrev main_call1_cst : Ref sig .tc := ⟨.hbm, 91, rfl⟩
abbrev main_call1_v2 : Ref sig .tc := ⟨.hbm, 92, rfl⟩
abbrev main_call1_v3 : Ref sig .tc := ⟨.hbm, 93, rfl⟩
abbrev main_call1_cst_0 : Ref sig .tc := ⟨.hbm, 94, rfl⟩
abbrev main_call1_v4 : Ref sig .tc := ⟨.hbm, 95, rfl⟩
abbrev main_call1_v5 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩

abbrev nD : Nat := 1
abbrev τ : Topo := Topo.v7x

variable {F : FTy → Type} [FloatOps F]

class Facts₀ : Prop where
  transposes_S1024x128_S128x1024_1_0 : S1024x128.Transposes [1, 0] S128x1024
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)
  shapeCasts_S65536x1024_S65536x8x128 : S65536x1024.ShapeCasts S65536x8x128
  transposes_S65536x8x128_S8x65536x128_1_0_2 : S65536x8x128.Transposes [1, 0, 2] S8x65536x128
  reducesTo_S8x65536x128_S8x65536_d2 : S8x65536x128.ReducesTo [2] S8x65536
  h_S_ : 0 < S_.numel
  bcast_S8x65536_S8x65536x1_0_1 : S8x65536.BroadcastsInDim S8x65536x1 (![0, 1] : Fin 2 → Fin S8x65536x1.rank)
  bcast_S_S8x65536x1 : S_.BroadcastsInDim S8x65536x1 (![] : Fin 0 → Fin S8x65536x1.rank)
  bcast_S8x65536x1_S8x65536x128_0_1_2 : S8x65536x1.BroadcastsInDim S8x65536x128 (![0, 1, 2] : Fin 3 → Fin S8x65536x128.rank)
  bcast_S8x128_S8x1x128_0_2 : S8x128.BroadcastsInDim S8x1x128 (![0, 2] : Fin 2 → Fin S8x1x128.rank)
  bcast_S8x1x128_S8x65536x128_0_1_2 : S8x1x128.BroadcastsInDim S8x65536x128 (![0, 1, 2] : Fin 3 → Fin S8x65536x128.rank)
  bcast_S_S8x65536x128 : S_.BroadcastsInDim S8x65536x128 (![] : Fin 0 → Fin S8x65536x128.rank)
  dot_S65536x128_S128x1024_S65536x1024_1_0_0_1_n_n_wf : DotDims.WF S65536x128 S128x1024 S65536x1024 [1] [0] [0] [1] [] []
  dot_S8x65536x128_S8x128x128_S8x65536x128_2_2_1_1_0_0_wf : DotDims.WF S8x65536x128 S8x128x128 S8x65536x128 [2] [2] [1] [1] [0] [0]

variable [Facts₀]

def dot_S65536x128_S128x1024_S65536x1024_1_0_0_1_n_n : DotDims S65536x128 S128x1024 S65536x1024 where
  lhsContracting := [1]
  rhsContracting := [0]
  lhsNonContracting := [0]
  rhsNonContracting := [1]
  lhsBatch := []
  rhsBatch := []
  wf := dot_S65536x128_S128x1024_S65536x1024_1_0_0_1_n_n_wf
def dot_S8x65536x128_S8x128x128_S8x65536x128_2_2_1_1_0_0 : DotDims S8x65536x128 S8x128x128 S8x65536x128 where
  lhsContracting := [2]
  rhsContracting := [2]
  lhsNonContracting := [1]
  rhsNonContracting := [1]
  lhsBatch := [0]
  rhsBatch := [0]
  wf := dot_S8x65536x128_S8x128x128_S8x65536x128_2_2_1_1_0_0_wf

class Facts : Prop extends Facts₀ where

variable [Facts]
-- ==== Proof.Spec.lean ====
/-
  The function both programs compute, index by index, on the extended reals.

  For a branch `n` (of 8), a row `e` (of 65536) and an output lane `o` (of 128):
  * the first layer is shared by the branches: `pre n e h = (∑ k, x[e,k] · W1[128 n + h, k]) + b1[128 n + h]`;
  * a branch normalizes its row of 128 lanes (mean and variance over the row, variance + ε under the reciprocal
    square root, then the branch's scale and shift), applies `z ↦ z · logistic z`, and feeds a 128 × 128 linear
    layer with bias; this is done twice, with the branch's second and third weight matrices.
  Nothing here needs the entries to be finite: the two programs apply the same operations in the same order.
-/
import Idealize.ShloMosaic.PureOps.Ideal
import Idealize.ShloMosaic.PureOps.Ideal.Laws
import Idealize.ShloMosaic.Lib.ValueIdx

noncomputable section

open scoped BigOperators

namespace Cert.BranchMlp

open Idealize.ShloMosaic Idealize.ShloMosaic.ValueIdx

/-- The row length 128 as the programs write it: the f32 word of `128.0`. -/
abbrev lanes : EReal := Ideal.ofBits .f32 0x43000000#32
/-- The variance offset ε as the programs write it: the f32 word nearest `1e-5`, the same word on both sides. -/
abbrev epsLn : EReal := Ideal.ofBits .f32 0x3727C5AC#32

/-- The mean of a row of 128 lanes. -/
def rowMean (f : Fin 128 → EReal) : EReal := Ideal.div (∑ k : Fin 128, f k) lanes

/-- The (biased) variance of a row of 128 lanes: the mean of the squared deviations from the row's mean. -/
def rowVar (f : Fin 128 → EReal) : EReal :=
  Ideal.div (∑ k : Fin 128, (f k - rowMean f) * (f k - rowMean f)) lanes

/-- Layer normalization of a row at lane `h`: `(f h − mean) · rsqrt (var + ε) · scale h + shift h`. -/
def layerNorm (f scale shift : Fin 128 → EReal) (h : Fin 128) : EReal :=
  (f h - rowMean f) * Ideal.rsqrt (rowVar f + epsLn) * scale h + shift h

/-- `z · logistic z`. -/
def silu (z : EReal) : EReal := z * Ideal.logistic z

/-- A linear layer on a row: `(∑ k, a k · A k o) + d o`, with `A k o` the weight from input lane `k` to output lane `o`. -/
def dense (a : Fin 128 → EReal) (A : Fin 128 → Fin 128 → EReal) (d : Fin 128 → EReal) (o : Fin 128) : EReal :=
  (∑ k : Fin 128, a k * A k o) + d o

/-- One branch from its row `r` of the first layer: normalize, activate, second linear layer, normalize, activate,
    third linear layer. -/
def branchOut (r : Fin 128 → EReal) (g1 c1 : Fin 128 → EReal) (A2 : Fin 128 → Fin 128 → EReal) (d2 g2 c2 : Fin 128 → EReal)
    (A3 : Fin 128 → Fin 128 → EReal) (d3 : Fin 128 → EReal) (o : Fin 128) : EReal :=
  dense (fun k => silu (layerNorm (dense (fun j => silu (layerNorm r g1 c1 j)) A2 d2) g2 c2 k)) A3 d3 o

/-- Lane `h` of branch `n` among the 1024 columns of the shared first layer. -/
abbrev col (n : Fin 8) (h : Fin 128) : Fin 1024 := ⟨n.val * 128 + h.val, by have := n.isLt; have := h.isLt; omega⟩

/-- The shared first layer, branch `n`, row `e`, lane `h`. -/
def pre (x : (⟨2, ![65536, 128]⟩ : Shape).Idx → EReal) (W1 : (⟨2, ![1024, 128]⟩ : Shape).Idx → EReal)
    (b1 : (⟨1, ![1024]⟩ : Shape).Idx → EReal) (n : Fin 8) (e : Fin 65536) (h : Fin 128) : EReal :=
  (∑ k : Fin 128, x (ix2 e k) * W1 (ix2 (col n h) k)) + b1 (ix1 (col n h))

/-- The result array, as one function of the eleven argument arrays. -/
def result (x : (⟨2, ![65536, 128]⟩ : Shape).Idx → EReal) (W1 : (⟨2, ![1024, 128]⟩ : Shape).Idx → EReal)
    (b1 : (⟨1, ![1024]⟩ : Shape).Idx → EReal) (g1 c1 : (⟨2, ![8, 128]⟩ : Shape).Idx → EReal)
    (W2 : (⟨3, ![8, 128, 128]⟩ : Shape).Idx → EReal) (d2 g2 c2 : (⟨2, ![8, 128]⟩ : Shape).Idx → EReal)
    (W3 : (⟨3, ![8, 128, 128]⟩ : Shape).Idx → EReal) (d3 : (⟨2, ![8, 128]⟩ : Shape).Idx → EReal) :
    (⟨3, ![8, 65536, 128]⟩ : Shape).Idx → EReal := fun i =>
  branchOut (pre x W1 b1 (i 0) (i 1)) (fun j => g1 (ix2 (i 0) j)) (fun j => c1 (ix2 (i 0) j))
    (fun k o => W2 (ix3 (i 0) o k)) (fun j => d2 (ix2 (i 0) j)) (fun j => g2 (ix2 (i 0) j)) (fun j => c2 (ix2 (i 0) j))
    (fun k o => W3 (ix3 (i 0) o k)) (fun j => d3 (ix2 (i 0) j)) (i 2)

end Cert.BranchMlp

end
-- ==== Proof.RefValue.lean ====
/-
  The reference program computes the specification's function.

  The reference is read one operation at a time through the generated stage lemmas (each stage at an index, from its
  operands at an index). Read at explicit coordinates — branch `n`, row `e`, lane `h` — the layout operations
  (transposition, reshape, broadcasts) become coordinate bookkeeping, and what is left is, layer by layer, the
  specification's own expression:
  * the first layer `x · W1ᵀ + b1`, reshaped and transposed to `[8, 65536, 128]`, is `pre`;
  * sum / 128, deviations, sum of squares / 128, + ε, reciprocal square root, scale and shift is `layerNorm`;
  * `z * (1 / (1 + exp (-z)))` is `silu`;
  * the batched contraction with a branch's weight matrix plus bias is `dense`.
  The two normalize–activate–linear stages of the reference have the same form, so their lemmas come in two copies.
  Nothing needs the entries to be finite: every step is an equality of extended reals, operation for operation.
-/
import proofs.«115626_j48782238548455_1_alg».proof.Proof.RefReadP
import proofs.«115626_j48782238548455_1_alg».proof.Proof.Spec

noncomputable section

open scoped BigOperators

namespace Cert.BranchMlp.Ref

open Cert.ReferenceIdeal Cert.ReferenceIdeal.ReadP Idealize.ShloMosaic Idealize.ShloMosaic.ValueIdx

/-! ### Small facts used throughout -/

/-- The f32 word `0x3F800000` is the number one: sign 0, exponent field 127 (the bias), fraction 0. -/
theorem one_eq : Ideal.ofBits .f32 0x3F800000#32 = 1 := by
  simp [Ideal.ofBits, Ideal.ieee, -EReal.coe_mul]; norm_num

/-- Two rank-1 indices with the same coordinate are equal. -/
theorem ext1 {n0 : Nat} {i j : (⟨1, ![n0]⟩ : Shape).Idx} (h0 : i 0 = j 0) : i = j := by
  funext a; match a with | ⟨0, _⟩ => exact h0
/-- Two rank-2 indices with the same coordinates are equal. -/
theorem ext2 {n0 n1 : Nat} {i j : (⟨2, ![n0, n1]⟩ : Shape).Idx} (h0 : i 0 = j 0) (h1 : i 1 = j 1) : i = j := by
  funext a; match a with | ⟨0, _⟩ => exact h0 | ⟨1, _⟩ => exact h1
/-- Two rank-3 indices with the same coordinates are equal. -/
theorem ext3 {n0 n1 n2 : Nat} {i j : (⟨3, ![n0, n1, n2]⟩ : Shape).Idx} (h0 : i 0 = j 0) (h1 : i 1 = j 1)
    (h2 : i 2 = j 2) : i = j := by
  funext a; match a with | ⟨0, _⟩ => exact h0 | ⟨1, _⟩ => exact h1 | ⟨2, _⟩ => exact h2

variable (x0 : (⟨S65536x128, .f32⟩ : BufTy).Contents (Elt Ideal)) (x1 : (⟨S1024x128, .f32⟩ : BufTy).Contents (Elt Ideal)) (x2 : (⟨S1024, .f32⟩ : BufTy).Contents (Elt Ideal)) (x3 x4 : (⟨S8x128, .f32⟩ : BufTy).Contents (Elt Ideal)) (x5 : (⟨S8x128x128, .f32⟩ : BufTy).Contents (Elt Ideal)) (x6 x7 x8 : (⟨S8x128, .f32⟩ : BufTy).Contents (Elt Ideal)) (x9 : (⟨S8x128x128, .f32⟩ : BufTy).Contents (Elt Ideal)) (x10 : (⟨S8x128, .f32⟩ : BufTy).Contents (Elt Ideal))

/-! ### The shared first layer -/

/-- Lane `h` of branch `n` in row `e` of the `[8, 65536, 128]` array is, through the transposition and the reshape of
    `[65536, 1024]` to `[65536, 8, 128]`, row `e` and column `128 n + h` of the flat first layer: the row-major position
    `(8 e + n) · 128 + h` divided by 1024 is `e` with remainder `128 n + h`. -/
theorem idx_v5_v6 (n : Fin 8) (e : Fin 65536) (h : Fin 128) :
    idx_main_v5 (idx_main_v6 (ix3 n e h)) = ix2 e (col n h) := by
  have hn := n.isLt
  have hh := h.isLt
  refine ext2 (Fin.ext ?_) (Fin.ext ?_)
  · show ((e.val * 8 + n.val) * 128 + h.val) / 1024 = e.val
    omega
  · show ((e.val * 8 + n.val) * 128 + h.val) % 1024 = n.val * 128 + h.val
    omega

/-- The reference's first layer, read at branch `n`, row `e`, lane `h`: the contraction of row `e` of the input with row
    `128 n + h` of the first weight matrix (the reference transposes the matrix and contracts with its columns), plus
    the bias at `128 n + h`. -/
theorem v6_eq (n : Fin 8) (e : Fin 65536) (h : Fin 128) :
    val_main_v6 (F := Ideal) x0 x1 x2 (ix3 n e h) = pre x0 x1 x2 n e h := by
  have hb : idx_main_v2 (idx_main_v3 (ix2 e (col n h))) = ix1 (col n h) := ext1 rfl
  have hl : ∀ k : Fin 128, x0 (lidx_main_v1 (ix2 e (col n h)) k) = x0 (ix2 e k) := fun k => congrArg x0 (ext2 rfl rfl)
  have hr : ∀ k : Fin 128, x1 (idx_main_v0 (ridx_main_v1 (ix2 e (col n h)) k)) = x1 (ix2 (col n h) k) :=
    fun k => congrArg x1 (ext2 rfl rfl)
  rw [val_main_v6_apply, val_main_v5_apply, idx_v5_v6, val_main_v4_apply, val_main_v1_apply, val_main_v3_apply,
    val_main_v2_apply, hb]
  simp only [Ideal.addf_def, val_main_v0_apply, hl, hr]
  rfl

/-! ### First normalization, activation and the second linear layer -/

/-- The row's mean as the reference computes it: the sum over the 128 lanes started from the word of zero, divided by
    the word of 128. -/
theorem v10_eq (n : Fin 8) (e : Fin 65536) (z : Fin 1) :
    val_main_v10 (F := Ideal) x0 x1 x2 (ix3 n e z) = rowMean (fun j => val_main_v6 (F := Ideal) x0 x1 x2 (ix3 n e j)) := by
  have hk : ∀ k : Fin 128, val_main_v6 (F := Ideal) x0 x1 x2 (idx_main_v7 (idx_main_v8 (ix3 n e z)) k) = val_main_v6 (F := Ideal) x0 x1 x2 (ix3 n e k) :=
    fun k => congrArg (val_main_v6 (F := Ideal) x0 x1 x2) (ext3 rfl rfl rfl)
  rw [val_main_v10_apply, val_main_v8_apply, val_main_v7_apply, val_main_v9_apply,
    val_main_cst_apply, val_main_cst_0_apply]
  simp only [Ideal.hostDivf_def, Ideal.ofBits_def, Ideal.ofBits_zero_f32, zero_add, hk]
  rfl

/-- The deviation from the mean that is squared for the variance. -/
theorem v12_eq (n : Fin 8) (e : Fin 65536) (k : Fin 128) :
    val_main_v12 (F := Ideal) x0 x1 x2 (ix3 n e k) = val_main_v6 (F := Ideal) x0 x1 x2 (ix3 n e k) - rowMean (fun j => val_main_v6 (F := Ideal) x0 x1 x2 (ix3 n e j)) := by
  have hk : idx_main_v11 (ix3 n e k) = ix3 n e (⟨0, Nat.one_pos⟩ : Fin 1) := ext3 rfl rfl rfl
  rw [val_main_v12_apply, val_main_v11_apply, hk, v10_eq]
  simp only [Ideal.subf_def]

/-- The sum of the squared deviations over the row. -/
theorem v14_eq (n : Fin 8) (e : Fin 65536) :
    val_main_v14 (F := Ideal) x0 x1 x2 (ix2 n e)
      = ∑ k : Fin 128, (val_main_v6 (F := Ideal) x0 x1 x2 (ix3 n e k) - rowMean (fun j => val_main_v6 (F := Ideal) x0 x1 x2 (ix3 n e j))) * (val_main_v6 (F := Ideal) x0 x1 x2 (ix3 n e k) - rowMean (fun j => val_main_v6 (F := Ideal) x0 x1 x2 (ix3 n e j))) := by
  rw [val_main_v14_apply, val_main_cst_1_apply]
  simp only [Ideal.ofBits_def, Ideal.ofBits_zero_f32, zero_add]
  refine Finset.sum_congr rfl fun k _ => ?_
  have hk : idx_main_v14 (ix2 n e) k = ix3 n e k := ext3 rfl rfl rfl
  rw [hk, val_main_v13_apply, v12_eq]
  simp only [Ideal.mulf_def]

/-- The reciprocal square root of the row's variance plus ε. -/
theorem v22_eq (n : Fin 8) (e : Fin 65536) (z : Fin 1) :
    val_main_v22 (F := Ideal) x0 x1 x2 (ix3 n e z) = Ideal.rsqrt (rowVar (fun j => val_main_v6 (F := Ideal) x0 x1 x2 (ix3 n e j)) + epsLn) := by
  have hk : idx_main_v15 (ix3 n e z) = ix2 n e := ext2 rfl rfl
  rw [val_main_v22_apply, val_main_v21_apply, val_main_v17_apply, val_main_v15_apply, hk, v14_eq,
    val_main_v16_apply, val_main_cst_2_apply, val_main_v20_apply, val_main_cst_3_apply]
  simp only [Ideal.hostUnary_rsqrt_def, Ideal.addf_def, Ideal.hostDivf_def, Ideal.ofBits_def]
  rfl

/-- The normalized row: deviation times reciprocal square root, times the branch's scale, plus its shift. -/
theorem v30_eq (n : Fin 8) (e : Fin 65536) (h : Fin 128) :
    val_main_v30 (F := Ideal) x0 x1 x2 x3 x4 (ix3 n e h) = layerNorm (fun j => val_main_v6 (F := Ideal) x0 x1 x2 (ix3 n e j)) (fun j => x3 (ix2 n j)) (fun j => x4 (ix2 n j)) h := by
  have h1 : idx_main_v18 (ix3 n e h) = ix3 n e (⟨0, Nat.one_pos⟩ : Fin 1) := ext3 rfl rfl rfl
  have h2 : idx_main_v23 (ix3 n e h) = ix3 n e (⟨0, Nat.one_pos⟩ : Fin 1) := ext3 rfl rfl rfl
  have h3 : idx_main_v25 (idx_main_v26 (ix3 n e h)) = ix2 n h := ext2 rfl rfl
  have h4 : idx_main_v28 (idx_main_v29 (ix3 n e h)) = ix2 n h := ext2 rfl rfl
  rw [val_main_v30_apply, val_main_v27_apply, val_main_v24_apply, val_main_v19_apply, val_main_v18_apply,
    h1, v10_eq, val_main_v23_apply, h2, v22_eq, val_main_v26_apply, val_main_v25_apply, h3,
    val_main_v29_apply, val_main_v28_apply, h4]
  simp only [Ideal.addf_def, Ideal.mulf_def, Ideal.subf_def]
  rfl

/-- The activation, written out by the reference as `z * (1 / (1 + exp (-z)))` with the word of one twice. -/
theorem v31_eq (i : S8x65536x128.Idx) : val_main_v31 (F := Ideal) x0 x1 x2 x3 x4 i = silu (val_main_v30 (F := Ideal) x0 x1 x2 x3 x4 i) := by
  rw [val_main_v31_apply, val_main_call0_v5_apply, val_main_call0_v4_apply, val_main_call0_cst_0_apply,
    val_main_call0_v3_apply, val_main_call0_v2_apply, val_main_call0_cst_apply, val_main_call0_v1_apply,
    val_main_call0_v0_apply]
  simp only [Ideal.ofBits_def, one_eq]
  rfl

/-- The linear layer: the batched contraction over the lanes of the activated row with the branch's weight matrix,
    output lane on the weight's middle axis, plus the branch's bias. -/
theorem v35_eq (n : Fin 8) (e : Fin 65536) (o : Fin 128) :
    val_main_v35 (F := Ideal) x0 x1 x2 x3 x4 x5 x6 (ix3 n e o)
      = dense (fun k => val_main_v31 (F := Ideal) x0 x1 x2 x3 x4 (ix3 n e k)) (fun k o' => x5 (ix3 n o' k)) (fun j => x6 (ix2 n j)) o := by
  have h3 : idx_main_v33 (idx_main_v34 (ix3 n e o)) = ix2 n o := ext2 rfl rfl
  have hl : ∀ k : Fin 128, val_main_v31 (F := Ideal) x0 x1 x2 x3 x4 (lidx_main_v32 (ix3 n e o) k) = val_main_v31 (F := Ideal) x0 x1 x2 x3 x4 (ix3 n e k) :=
    fun k => congrArg (val_main_v31 (F := Ideal) x0 x1 x2 x3 x4) (ext3 rfl rfl rfl)
  have hr : ∀ k : Fin 128, x5 (ridx_main_v32 (ix3 n e o) k) = x5 (ix3 n o k) :=
    fun k => congrArg x5 (ext3 rfl rfl rfl)
  rw [val_main_v35_apply, val_main_v32_apply, val_main_v34_apply, val_main_v33_apply, h3]
  simp only [Ideal.addf_def, hl, hr]
  rfl

/-! ### Second normalization, activation and the third linear layer -/

/-- The row's mean as the reference computes it: the sum over the 128 lanes started from the word of zero, divided by
    the word of 128. -/
theorem v39_eq (n : Fin 8) (e : Fin 65536) (z : Fin 1) :
    val_main_v39 (F := Ideal) x0 x1 x2 x3 x4 x5 x6 (ix3 n e z) = rowMean (fun j => val_main_v35 (F := Ideal) x0 x1 x2 x3 x4 x5 x6 (ix3 n e j)) := by
  have hk : ∀ k : Fin 128, val_main_v35 (F := Ideal) x0 x1 x2 x3 x4 x5 x6 (idx_main_v36 (idx_main_v37 (ix3 n e z)) k) = val_main_v35 (F := Ideal) x0 x1 x2 x3 x4 x5 x6 (ix3 n e k) :=
    fun k => congrArg (val_main_v35 (F := Ideal) x0 x1 x2 x3 x4 x5 x6) (ext3 rfl rfl rfl)
  rw [val_main_v39_apply, val_main_v37_apply, val_main_v36_apply, val_main_v38_apply,
    val_main_cst_4_apply, val_main_cst_5_apply]
  simp only [Ideal.hostDivf_def, Ideal.ofBits_def, Ideal.ofBits_zero_f32, zero_add, hk]
  rfl

/-- The deviation from the mean that is squared for the variance. -/
theorem v41_eq (n : Fin 8) (e : Fin 65536) (k : Fin 128) :
    val_main_v41 (F := Ideal) x0 x1 x2 x3 x4 x5 x6 (ix3 n e k) = val_main_v35 (F := Ideal) x0 x1 x2 x3 x4 x5 x6 (ix3 n e k) - rowMean (fun j => val_main_v35 (F := Ideal) x0 x1 x2 x3 x4 x5 x6 (ix3 n e j)) := by
  have hk : idx_main_v40 (ix3 n e k) = ix3 n e (⟨0, Nat.one_pos⟩ : Fin 1) := ext3 rfl rfl rfl
  rw [val_main_v41_apply, val_main_v40_apply, hk, v39_eq]
  simp only [Ideal.subf_def]

/-- The sum of the squared deviations over the row. -/
theorem v43_eq (n : Fin 8) (e : Fin 65536) :
    val_main_v43 (F := Ideal) x0 x1 x2 x3 x4 x5 x6 (ix2 n e)
      = ∑ k : Fin 128, (val_main_v35 (F := Ideal) x0 x1 x2 x3 x4 x5 x6 (ix3 n e k) - rowMean (fun j => val_main_v35 (F := Ideal) x0 x1 x2 x3 x4 x5 x6 (ix3 n e j))) * (val_main_v35 (F := Ideal) x0 x1 x2 x3 x4 x5 x6 (ix3 n e k) - rowMean (fun j => val_main_v35 (F := Ideal) x0 x1 x2 x3 x4 x5 x6 (ix3 n e j))) := by
  rw [val_main_v43_apply, val_main_cst_6_apply]
  simp only [Ideal.ofBits_def, Ideal.ofBits_zero_f32, zero_add]
  refine Finset.sum_congr rfl fun k _ => ?_
  have hk : idx_main_v43 (ix2 n e) k = ix3 n e k := ext3 rfl rfl rfl
  rw [hk, val_main_v42_apply, v41_eq]
  simp only [Ideal.mulf_def]

/-- The reciprocal square root of the row's variance plus ε. -/
theorem v51_eq (n : Fin 8) (e : Fin 65536) (z : Fin 1) :
    val_main_v51 (F := Ideal) x0 x1 x2 x3 x4 x5 x6 (ix3 n e z) = Ideal.rsqrt (rowVar (fun j => val_main_v35 (F := Ideal) x0 x1 x2 x3 x4 x5 x6 (ix3 n e j)) + epsLn) := by
  have hk : idx_main_v44 (ix3 n e z) = ix2 n e := ext2 rfl rfl
  rw [val_main_v51_apply, val_main_v50_apply, val_main_v46_apply, val_main_v44_apply, hk, v43_eq,
    val_main_v45_apply, val_main_cst_7_apply, val_main_v49_apply, val_main_cst_8_apply]
  simp only [Ideal.hostUnary_rsqrt_def, Ideal.addf_def, Ideal.hostDivf_def, Ideal.ofBits_def]
  rfl

/-- The normalized row: deviation times reciprocal square root, times the branch's scale, plus its shift. -/
theorem v59_eq (n : Fin 8) (e : Fin 65536) (h : Fin 128) :
    val_main_v59 (F := Ideal) x0 x1 x2 x3 x4 x5 x6 x7 x8 (ix3 n e h) = layerNorm (fun j => val_main_v35 (F := Ideal) x0 x1 x2 x3 x4 x5 x6 (ix3 n e j)) (fun j => x7 (ix2 n j)) (fun j => x8 (ix2 n j)) h := by
  have h1 : idx_main_v47 (ix3 n e h) = ix3 n e (⟨0, Nat.one_pos⟩ : Fin 1) := ext3 rfl rfl rfl
  have h2 : idx_main_v52 (ix3 n e h) = ix3 n e (⟨0, Nat.one_pos⟩ : Fin 1) := ext3 rfl rfl rfl
  have h3 : idx_main_v54 (idx_main_v55 (ix3 n e h)) = ix2 n h := ext2 rfl rfl
  have h4 : idx_main_v57 (idx_main_v58 (ix3 n e h)) = ix2 n h := ext2 rfl rfl
  rw [val_main_v59_apply, val_main_v56_apply, val_main_v53_apply, val_main_v48_apply, val_main_v47_apply,
    h1, v39_eq, val_main_v52_apply, h2, v51_eq, val_main_v55_apply, val_main_v54_apply, h3,
    val_main_v58_apply, val_main_v57_apply, h4]
  simp only [Ideal.addf_def, Ideal.mulf_def, Ideal.subf_def]
  rfl

/-- The activation, written out by the reference as `z * (1 / (1 + exp (-z)))` with the word of one twice. -/
theorem v60_eq (i : S8x65536x128.Idx) : val_main_v60 (F := Ideal) x0 x1 x2 x3 x4 x5 x6 x7 x8 i = silu (val_main_v59 (F := Ideal) x0 x1 x2 x3 x4 x5 x6 x7 x8 i) := by
  rw [val_main_v60_apply, val_main_call1_v5_apply, val_main_call1_v4_apply, val_main_call1_cst_0_apply,
    val_main_call1_v3_apply, val_main_call1_v2_apply, val_main_call1_cst_apply, val_main_call1_v1_apply,
    val_main_call1_v0_apply]
  simp only [Ideal.ofBits_def, one_eq]
  rfl

/-- The linear layer: the batched contraction over the lanes of the activated row with the branch's weight matrix,
    output lane on the weight's middle axis, plus the branch's bias. -/
theorem v64_eq (n : Fin 8) (e : Fin 65536) (o : Fin 128) :
    val_main_v64 (F := Ideal) x0 x1 x2 x3 x4 x5 x6 x7 x8 x9 x10 (ix3 n e o)
      = dense (fun k => val_main_v60 (F := Ideal) x0 x1 x2 x3 x4 x5 x6 x7 x8 (ix3 n e k)) (fun k o' => x9 (ix3 n o' k)) (fun j => x10 (ix2 n j)) o := by
  have h3 : idx_main_v62 (idx_main_v63 (ix3 n e o)) = ix2 n o := ext2 rfl rfl
  have hl : ∀ k : Fin 128, val_main_v60 (F := Ideal) x0 x1 x2 x3 x4 x5 x6 x7 x8 (lidx_main_v61 (ix3 n e o) k) = val_main_v60 (F := Ideal) x0 x1 x2 x3 x4 x5 x6 x7 x8 (ix3 n e k) :=
    fun k => congrArg (val_main_v60 (F := Ideal) x0 x1 x2 x3 x4 x5 x6 x7 x8) (ext3 rfl rfl rfl)
  have hr : ∀ k : Fin 128, x9 (ridx_main_v61 (ix3 n e o) k) = x9 (ix3 n o k) :=
    fun k => congrArg x9 (ext3 rfl rfl rfl)
  rw [val_main_v64_apply, val_main_v61_apply, val_main_v63_apply, val_main_v62_apply, h3]
  simp only [Ideal.addf_def, hl, hr]
  rfl

/-! ### The whole program -/

/-- The reference's result is the specification's: each layer above, rewritten into the next from the output inwards. -/
theorem ref_eq (x0 : (⟨S65536x128, .f32⟩ : BufTy).Contents (Elt Ideal)) (x1 : (⟨S1024x128, .f32⟩ : BufTy).Contents (Elt Ideal)) (x2 : (⟨S1024, .f32⟩ : BufTy).Contents (Elt Ideal)) (x3 x4 : (⟨S8x128, .f32⟩ : BufTy).Contents (Elt Ideal)) (x5 : (⟨S8x128x128, .f32⟩ : BufTy).Contents (Elt Ideal)) (x6 x7 x8 : (⟨S8x128, .f32⟩ : BufTy).Contents (Elt Ideal)) (x9 : (⟨S8x128x128, .f32⟩ : BufTy).Contents (Elt Ideal)) (x10 : (⟨S8x128, .f32⟩ : BufTy).Contents (Elt Ideal)) :
    Cert.ReferenceIdeal.ReadP.val_main_v64 (F := Ideal) x0 x1 x2 x3 x4 x5 x6 x7 x8 x9 x10
      = Cert.BranchMlp.result x0 x1 x2 x3 x4 x5 x6 x7 x8 x9 x10 := by
  funext i
  obtain ⟨n, e, o, rfl⟩ : ∃ (n : Fin 8) (e : Fin 65536) (o : Fin 128), i = ix3 n e o := ⟨i 0, i 1, i 2, eq_ix3 i⟩
  show _ = branchOut (pre x0 x1 x2 n e) (fun j => x3 (ix2 n j)) (fun j => x4 (ix2 n j)) (fun k o' => x5 (ix3 n o' k))
    (fun j => x6 (ix2 n j)) (fun j => x7 (ix2 n j)) (fun j => x8 (ix2 n j)) (fun k o' => x9 (ix3 n o' k))
    (fun j => x10 (ix2 n j)) o
  have e6 : (fun j => val_main_v6 (F := Ideal) x0 x1 x2 (ix3 n e j)) = pre x0 x1 x2 n e :=
    funext fun j => v6_eq x0 x1 x2 n e j
  unfold branchOut
  rw [v64_eq]
  simp only [v60_eq, v59_eq, v35_eq, v31_eq, v30_eq, e6]

end Cert.BranchMlp.Ref

end
-- ==== Proof.KernelStages.lean ====
/-
  The kernel body's arithmetic, branch by branch.

  The body computes the shared first layer once, a [1024, 1024] tile, and then, for each of the 8 branches, takes the
  branch's 128 columns of that tile and applies the same chain of operations: normalize the rows and activate, a
  128 × 128 linear layer with bias, normalize and activate again, a second linear layer with bias, and a cast of the
  [1024, 128] result to the [1, 1024, 128] slab the branch stores. The chain is stated here ONCE (`normAct`, `linear`,
  `branchBlock`), in the body's own operations, and each stored slab is shown to be that chain of its branch's
  columns and parameter rows (`slab0` … `slab7`, by unfolding).
-/
import proofs.«115626_j48782238548455_1_alg».proof.Proof.Gen.KernelIdeal.Skeleton

noncomputable section

namespace Cert.BranchMlp.Kernel

open Cert.KernelIdeal Cert.KernelIdeal.Gen Idealize.ShloMosaic Idealize.SL.Sem

variable {F : FTy → Type} [FloatOps F]

/-- Rows normalized and activated: with `μ` the row's mean (its sum over 128) and `σ²` the mean of the squared
    deviations, `z = (v − μ) · rsqrt (σ² + ε) · scale + shift` lane by lane, then `z · logistic z`. -/
def normAct (v : FVec F S1024x128 .f32) (scale shift : Vec F S1x128 .f32) : FVec F S1024x128 .f32 :=
  have mu : FVec F S1024x1 .f32 := divf (shapeCast S1024x1 (multiReduction .add [1] S1024 v 0x00000000#32 reduces_S1024x128_S1024 (.inl rfl) rfl) shapeCasts_S1024_S1024x1) (broadcast S1024x1 (Scalar.ofBits .f32 0x43000000#32))
  have dev : FVec F S1024x128 .f32 := subf v (broadcastTo S1024x128 mu broadcasts_S1024x1_S1024x128)
  have var : FVec F S1024x1 .f32 := divf (shapeCast S1024x1 (multiReduction .add [1] S1024 (mulf dev dev) 0x00000000#32 reduces_S1024x128_S1024 (.inl rfl) rfl) shapeCasts_S1024_S1024x1) (broadcast S1024x1 (Scalar.ofBits .f32 0x43000000#32))
  have inv : FVec F S1024x1 .f32 := rsqrt (addf var (broadcast S1024x1 (Scalar.ofBits .f32 0x3727C5AC#32)))
  have z : FVec F S1024x128 .f32 := addf (mulf (mulf dev (broadcastTo S1024x128 inv broadcasts_S1024x1_S1024x128)) (broadcastTo S1024x128 (shapeCast S1x128 (shapeCast S128 scale shapeCasts_S1x128_S128) shapeCasts_S128_S1x128) broadcasts_S1x128_S1024x128)) (broadcastTo S1024x128 (shapeCast S1x128 (shapeCast S128 shift shapeCasts_S1x128_S128) shapeCasts_S128_S1x128) broadcasts_S1x128_S1024x128)
  mulf z (logistic z)

/-- A linear layer on the rows: the matrix product with the branch's [128, 128] weights (input lane by output lane)
    into a zero accumulator, plus the bias row. -/
def linear (a : FVec F S1024x128 .bf16) (w : Vec F S1x128x128 .bf16) (b : Vec F S1x128 .f32) : FVec F S1024x128 .f32 :=
  addf (matmul dot_S1024x128_S128x128_S1024x128_1_0_0_1_n_n none a (shapeCast S128x128 w shapeCasts_S1x128x128_S128x128) (constant S1024x128 .f32 0x00000000#32))
    (broadcastTo S1024x128 (shapeCast S1x128 (shapeCast S128 b shapeCasts_S1x128_S128) shapeCasts_S128_S1x128) broadcasts_S1x128_S1024x128)

/-- One branch's stored slab from its 128 columns `v` of the first layer and its parameter rows. -/
def branchBlock (v : FVec F S1024x128 .f32) (g1 c1 : Vec F S1x128 .f32) (w2 : Vec F S1x128x128 .bf16) (d2 g2 c2 : Vec F S1x128 .f32)
    (w3 : Vec F S1x128x128 .bf16) (d3 : Vec F S1x128 .f32) : FVec F S1x1024x128 .f32 :=
  shapeCast S1x1024x128 (linear (truncf .bf16 (normAct (linear (truncf .bf16 (normAct v g1 c1) bitsLt_bf16_f32) w2 d2) g2 c2) bitsLt_bf16_f32) w3 d3) shapeCasts_S1024x128_S1x1024x128

/-- The shared first layer: the matrix product of the row tile with the [128, 1024] weights into a zero accumulator,
    plus the bias row. (It is the body's first payload.) -/
theorem firstLayer_eq (v0 : Vec F S1024x128 .f32) (v2 : Vec F S128x1024 .bf16) (v4 : Vec F S1x1024 .f32) :
    k0_pay1 v0 v2 v4 = addf (matmul dot_S1024x128_S128x1024_S1024x1024_1_0_0_1_n_n none (truncf .bf16 v0 bitsLt_bf16_f32) (shapeCast S128x1024 v2 shapeCasts_S128x1024_S128x1024) (constant S1024x1024 .f32 0x00000000#32))
      (broadcastTo S1024x1024 (shapeCast S1x1024 v4 shapeCasts_S1x1024_S1x1024) broadcasts_S1x1024_S1024x1024) := rfl

/-- Branch 0's slab. -/
theorem slab0 (v0 : Vec F S1024x128 .f32) (v2 : Vec F S128x1024 .bf16) (v4 : Vec F S1x1024 .f32) (g1 c1 : Vec F S1x128 .f32) (w2 : Vec F S1x128x128 .bf16) (d2 g2 c2 : Vec F S1x128 .f32) (w3 : Vec F S1x128x128 .bf16) (d3 : Vec F S1x128 .f32) :
    k0_pay5 (k0_pay3 (k0_pay2 v0 v2 v4 g1 c1) w2 d2 g2 c2) (k0_pay4 w3) d3
      = branchBlock (extractStridedSlice S1024x128 ![0, 0] (k0_pay1 v0 v2 v4) slices_S1024x1024_o0_0_S1024x128) g1 c1 w2 d2 g2 c2 w3 d3 := rfl

/-- Branch 1's slab. -/
theorem slab1 (V : FVec F S1024x1024 .f32) (g1 c1 : Vec F S1x128 .f32) (w2 : Vec F S1x128x128 .bf16) (d2 g2 c2 : Vec F S1x128 .f32) (w3 : Vec F S1x128x128 .bf16) (d3 : Vec F S1x128 .f32) :
    k0_pay10 (k0_pay8 d3) (k0_pay9 (k0_pay6 V g1 c1) (k0_pay7 w2) d2 g2 c2 w3)
      = branchBlock (extractStridedSlice S1024x128 ![0, 128] V slices_S1024x1024_o0_128_S1024x128) g1 c1 w2 d2 g2 c2 w3 d3 := rfl

/-- Branch 2's slab. -/
theorem slab2 (V : FVec F S1024x1024 .f32) (g1 c1 : Vec F S1x128 .f32) (w2 : Vec F S1x128x128 .bf16) (d2 g2 c2 : Vec F S1x128 .f32) (w3 : Vec F S1x128x128 .bf16) (d3 : Vec F S1x128 .f32) :
    k0_pay15 (k0_pay14 (k0_pay11 V g1 c1) (k0_pay12 w2) (k0_pay13 d2) g2 c2 w3 d3)
      = branchBlock (extractStridedSlice S1024x128 ![0, 256] V slices_S1024x1024_o0_256_S1024x128) g1 c1 w2 d2 g2 c2 w3 d3 := rfl

/-- Branch 3's slab. -/
theorem slab3 (V : FVec F S1024x1024 .f32) (g1 c1 : Vec F S1x128 .f32) (w2 : Vec F S1x128x128 .bf16) (d2 g2 c2 : Vec F S1x128 .f32) (w3 : Vec F S1x128x128 .bf16) (d3 : Vec F S1x128 .f32) :
    k0_pay17 (k0_pay16 V g1 c1 w2 d2) g2 c2 w3 d3
      = branchBlock (extractStridedSlice S1024x128 ![0, 384] V slices_S1024x1024_o0_384_S1024x128) g1 c1 w2 d2 g2 c2 w3 d3 := rfl

/-- Branch 4's slab. -/
theorem slab4 (V : FVec F S1024x1024 .f32) (g1 c1 : Vec F S1x128 .f32) (w2 : Vec F S1x128x128 .bf16) (d2 g2 c2 : Vec F S1x128 .f32) (w3 : Vec F S1x128x128 .bf16) (d3 : Vec F S1x128 .f32) :
    k0_pay20 (k0_pay18 V g1 c1 w2 d2) (k0_pay19 V g1 c1 w2 d2) (Scalar.ofBits .f32 0x43000000#32) g2 c2 w3 d3
      = branchBlock (extractStridedSlice S1024x128 ![0, 512] V slices_S1024x1024_o0_512_S1024x128) g1 c1 w2 d2 g2 c2 w3 d3 := rfl

/-- Branch 5's slab. -/
theorem slab5 (V : FVec F S1024x1024 .f32) (g1 c1 : Vec F S1x128 .f32) (w2 : Vec F S1x128x128 .bf16) (d2 g2 c2 : Vec F S1x128 .f32) (w3 : Vec F S1x128x128 .bf16) (d3 : Vec F S1x128 .f32) :
    k0_pay26 (k0_pay23 (k0_pay21 V) (k0_pay22 V) g1 c1 w2 d2) (k0_pay24 (k0_pay21 V) (k0_pay22 V) g1 c1 w2 d2) (k0_pay25 (k0_pay21 V) (k0_pay22 V) g1 c1 w2 d2) g2 c2 w3 d3
      = branchBlock (extractStridedSlice S1024x128 ![0, 640] V slices_S1024x1024_o0_640_S1024x128) g1 c1 w2 d2 g2 c2 w3 d3 := rfl

/-- Branch 6's slab. -/
theorem slab6 (V : FVec F S1024x1024 .f32) (g1 c1 : Vec F S1x128 .f32) (w2 : Vec F S1x128x128 .bf16) (d2 g2 c2 : Vec F S1x128 .f32) (w3 : Vec F S1x128x128 .bf16) (d3 : Vec F S1x128 .f32) :
    k0_pay32 (k0_pay29 (k0_pay27 V) (k0_pay28 V) g1 c1 w2 d2) (k0_pay30 (k0_pay27 V) (k0_pay28 V) g1 c1 w2 d2) (k0_pay31 (k0_pay27 V) (k0_pay28 V) g1 c1 w2 d2) g2 c2 w3 d3
      = branchBlock (extractStridedSlice S1024x128 ![0, 768] V slices_S1024x1024_o0_768_S1024x128) g1 c1 w2 d2 g2 c2 w3 d3 := rfl

/-- Branch 7's slab. -/
theorem slab7 (V : FVec F S1024x1024 .f32) (g1 c1 : Vec F S1x128 .f32) (w2 : Vec F S1x128x128 .bf16) (d2 g2 c2 : Vec F S1x128 .f32) (w3 : Vec F S1x128x128 .bf16) (d3 : Vec F S1x128 .f32) :
    k0_pay39 (k0_pay36 (k0_pay33 V) (k0_pay34 V) (k0_pay35 V) g1 c1 w2 d2) (k0_pay37 (k0_pay33 V) (k0_pay34 V) (k0_pay35 V) g1 c1 w2 d2) (k0_pay38 (k0_pay33 V) (k0_pay34 V) (k0_pay35 V) g1 c1 w2 d2) g2 c2 w3 d3
      = branchBlock (extractStridedSlice S1024x128 ![0, 896] V slices_S1024x1024_o0_896_S1024x128) g1 c1 w2 d2 g2 c2 w3 d3 := rfl

end Cert.BranchMlp.Kernel

end
-- ==== Proof.LibColumnLayout.lean ====
/-
  Two layout operations read at an index given by coordinates, for arrays that keep a reduced axis as a unit LAST axis
  (a row statistic kept as a column): a vector cast to a column, and a column broadcast over the lanes. They complete
  the leading-unit-axis casts and the row broadcast of the library's Lib/ValueLayout.lean, in the same style, and depend
  on nothing but the library: any certificate whose body takes a row sum with the reduced axis kept can use them.
-/
import Idealize.ShloMosaic.Lib.ValueLayout
import Idealize.ShloMosaic.Lib.ValueIdx

namespace Cert.LibColumnLayout

open Idealize.ShloMosaic Idealize.ShloMosaic.ValueIdx

/-- An `[a]` array cast to `[a, 1]` reads, at `(i, u)`, the operand at `i`, whatever the unit coordinate `u`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry in row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.LibColumnLayout
-- ==== Proof.KernelIndex.lean ====
/-
  The kernel body's stages read at one index, on the extended reals.

  Each stage of `KernelStages` is a composition of lane-wise operations with a few operations that move data: a row sum
  kept as a column, a column or a parameter row broadcast over the tile, a matrix product, casts that add or drop a unit
  axis. Read at `(r, h)`, the lane-wise operations are the extended reals' own, a row sum is `∑ k, v (r, k)`, a
  broadcast column is its entry in row `r`, a broadcast parameter row its entry in lane `h`, and a product is
  `∑ k, L (r, k) · R (k, h)`. Put together, a branch's slab at `(·, r, o)` is `Cert.BranchMlp.branchOut` of row `r` of the
  branch's columns and of the branch's parameter rows.
-/
import proofs.«115626_j48782238548455_1_alg».proof.Proof.KernelStages
import proofs.«115626_j48782238548455_1_alg».proof.Proof.Spec
import proofs.«115626_j48782238548455_1_alg».proof.Proof.LibColumnLayout
import Idealize.ShloMosaic.Lib.ValueLayout
import Idealize.ShloMosaic.Lib.ValueIdx
import Idealize.ShloMosaic.PureOps.Ideal.Laws

noncomputable section

open scoped BigOperators

namespace Cert.BranchMlp.Kernel

open Cert.KernelIdeal Cert.KernelIdeal.Gen Idealize.ShloMosaic Idealize.ShloMosaic.ValueIdx Cert.BranchMlp Cert.LibColumnLayout

/-! ## The tile's data movements -/

/-- The sum of row `r` over its 128 lanes, kept as a column. -/
theorem rowSum_apply (v : FVec Ideal S1024x128 .f32) (r : Fin 1024) (u : Fin 1) :
    shapeCast S1024x1 (multiReduction .add [1] S1024 v 0x00000000#32 reduces_S1024x128_S1024 (.inl rfl) rfl) shapeCasts_S1024_S1024x1 (ix2 r u)
      = ∑ k : Fin 128, v (ix2 r k) :=
  (shapeCast_a_a1_apply _ shapeCasts_S1024_S1024x1 r u).trans
    ((Ideal.multiReduction_add_single v 0x00000000#32 reduces_S1024x128_S1024 (.inl rfl) rfl (ix1 r)).trans
      (Finset.sum_congr rfl fun k _ => congrArg v (funext fun a => Fin.ext (match a with | ⟨0, _⟩ => rfl | ⟨1, _⟩ => rfl))))

/-- A column broadcast over the 128 lanes reads its entry in row `r`. -/
theorem colBcast_apply (m : FVec Ideal S1024x1 .f32) (r : Fin 1024) (h : Fin 128) :
    broadcastTo S1024x128 m broadcasts_S1024x1_S1024x128 (ix2 r h) = m (ix2 r (0 : Fin 1)) :=
  broadcastTo_a1_ab_apply m broadcasts_S1024x1_S1024x128 r h

/-- A parameter row (a `[1, 128]` load, flattened and restored) broadcast over the 1024 rows reads its entry in lane `h`. -/
theorem paramRow_apply (w : Vec Ideal S1x128 .f32) (r : Fin 1024) (h : Fin 128) :
    broadcastTo S1024x128 (shapeCast S1x128 (shapeCast S128 w shapeCasts_S1x128_S128) shapeCasts_S128_S1x128) broadcasts_S1x128_S1024x128 (ix2 r h)
      = w (ix2 (0 : Fin 1) h) :=
  (broadcastTo_1b_ab_apply _ broadcasts_S1x128_S1024x128 r h).trans
    ((shapeCast_a_1a_apply _ shapeCasts_S128_S1x128 (0 : Fin 1) h).trans (shapeCast_1a_a_apply w shapeCasts_S1x128_S128 h))

/-! ## The two matrix products at an index -/

theorem dotFirst_lhs0 (i : S1024x1024.Idx) (q : dot_S1024x128_S128x1024_S1024x1024_1_0_0_1_n_n.contr.Idx) : (dot_S1024x128_S128x1024_S1024x1024_1_0_0_1_n_n.lhsIdx i q 0).val = (i 0).val := by
  unfold DotDims.lhsIdx
  rw [dif_neg (show ¬(0 : Fin S1024x128.rank) ∈ dot_S1024x128_S128x1024_S1024x1024_1_0_0_1_n_n.lhsBatch by decide), dif_pos (show (0 : Fin S1024x128.rank) ∈ dot_S1024x128_S128x1024_S1024x1024_1_0_0_1_n_n.lhsNonContracting by decide)]
  rfl
theorem dotFirst_lhs1 (i : S1024x1024.Idx) (q : dot_S1024x128_S128x1024_S1024x1024_1_0_0_1_n_n.contr.Idx) : (dot_S1024x128_S128x1024_S1024x1024_1_0_0_1_n_n.lhsIdx i q 1).val = (q ⟨0, by decide⟩).val :=
  dot_S1024x128_S128x1024_S1024x1024_1_0_0_1_n_n.lhsIdx_val_of_single rfl i q
theorem dotFirst_rhs0 (i : S1024x1024.Idx) (q : dot_S1024x128_S128x1024_S1024x1024_1_0_0_1_n_n.contr.Idx) : (dot_S1024x128_S128x1024_S1024x1024_1_0_0_1_n_n.rhsIdx i q 0).val = (q ⟨0, by decide⟩).val :=
  dot_S1024x128_S128x1024_S1024x1024_1_0_0_1_n_n.rhsIdx_val_of_single rfl i q
theorem dotFirst_rhs1 (i : S1024x1024.Idx) (q : dot_S1024x128_S128x1024_S1024x1024_1_0_0_1_n_n.contr.Idx) : (dot_S1024x128_S128x1024_S1024x1024_1_0_0_1_n_n.rhsIdx i q 1).val = (i 1).val := by
  unfold DotDims.rhsIdx
  rw [dif_neg (show ¬(1 : Fin S128x1024.rank) ∈ dot_S1024x128_S128x1024_S1024x1024_1_0_0_1_n_n.rhsBatch by decide), dif_pos (show (1 : Fin S128x1024.rank) ∈ dot_S1024x128_S128x1024_S1024x1024_1_0_0_1_n_n.rhsNonContracting by decide)]
  rfl

/-- The product read at `(r, c)`: the sum over the one contracted coordinate `k` of the left operand at `(r, k)` times
    the right operand at `(k, c)`. -/
theorem dotFirst_apply {φ₁ φ₂ : FTy} (L : FVec Ideal S1024x128 φ₁) (R : FVec Ideal S128x1024 φ₂) (r : Fin 1024) (c : Fin 1024) :
    matmul dot_S1024x128_S128x1024_S1024x1024_1_0_0_1_n_n none L R (constant S1024x1024 .f32 0x00000000#32) (ix2 r c) = ∑ k : Fin 128, L (ix2 r k) * R (ix2 k c) := by
  simp only [matmul]
  rw [Ideal.matmul_constant_zero_apply, ← Equiv.sum_comp (contrEquiv1 dot_S1024x128_S128x1024_S1024x1024_1_0_0_1_n_n 128 rfl rfl).symm]
  refine Finset.sum_congr rfl fun k _ => ?_
  have hk := contrEquiv1_symm_val dot_S1024x128_S128x1024_S1024x1024_1_0_0_1_n_n 128 rfl rfl k
  have el : dot_S1024x128_S128x1024_S1024x1024_1_0_0_1_n_n.lhsIdx (ix2 r c) ((contrEquiv1 dot_S1024x128_S128x1024_S1024x1024_1_0_0_1_n_n 128 rfl rfl).symm k) = ix2 r k := funext fun a => Fin.ext (by
    match a with
    | ⟨0, _⟩ => exact dotFirst_lhs0 _ _
    | ⟨1, _⟩ => exact (dotFirst_lhs1 _ _).trans hk)
  have er : dot_S1024x128_S128x1024_S1024x1024_1_0_0_1_n_n.rhsIdx (ix2 r c) ((contrEquiv1 dot_S1024x128_S128x1024_S1024x1024_1_0_0_1_n_n 128 rfl rfl).symm k) = ix2 k c := funext fun a => Fin.ext (by
    match a with
    | ⟨0, _⟩ => exact (dotFirst_rhs0 _ _).trans hk
    | ⟨1, _⟩ => exact dotFirst_rhs1 _ _)
  rw [el, er]

theorem dotBranch_lhs0 (i : S1024x128.Idx) (q : dot_S1024x128_S128x128_S1024x128_1_0_0_1_n_n.contr.Idx) : (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
theorem dotBranch_lhs1 (i : S1024x128.Idx) (q : dot_S1024x128_S128x128_S1024x128_1_0_0_1_n_n.contr.Idx) : (dot_S1024x128_S128x128_S1024x128_1_0_0_1_n_n.lhsIdx i q 1).val = (q ⟨0, by decide⟩).val :=
  dot_S1024x128_S128x128_S1024x128_1_0_0_1_n_n.lhsIdx_val_of_single rfl i q
theorem dotBranch_rhs0 (i : S1024x128.Idx) (q : dot_S1024x128_S128x128_S1024x128_1_0_0_1_n_n.contr.Idx) : (dot_S1024x128_S128x128_S1024x128_1_0_0_1_n_n.rhsIdx i q 0).val = (q ⟨0, by decide⟩).val :=
  dot_S1024x128_S128x128_S1024x128_1_0_0_1_n_n.rhsIdx_val_of_single rfl i q
theorem dotBranch_rhs1 (i : S1024x128.Idx) (q : dot_S1024x128_S128x128_S1024x128_1_0_0_1_n_n.contr.Idx) : (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl

/-- The product read at `(r, c)`: the sum over the one contracted coordinate `k` of the left operand at `(r, k)` times
    the right operand at `(k, c)`. -/
theorem dotBranch_apply {φ₁ φ₂ : FTy} (L : FVec Ideal S1024x128 φ₁) (R : FVec Ideal S128x128 φ₂) (r : Fin 1024) (c : Fin 128) :
    matmul dot_S1024x128_S128x128_S1024x128_1_0_0_1_n_n none L R (constant S1024x128 .f32 0x00000000#32) (ix2 r c) = ∑ k : Fin 128, L (ix2 r k) * R (ix2 k c) := by
  simp only [matmul]
  rw [Ideal.matmul_constant_zero_apply, ← Equiv.sum_comp (contrEquiv1 dot_S1024x128_S128x128_S1024x128_1_0_0_1_n_n 128 rfl rfl).symm]
  refine Finset.sum_congr rfl fun k _ => ?_
  have hk := contrEquiv1_symm_val dot_S1024x128_S128x128_S1024x128_1_0_0_1_n_n 128 rfl rfl k
  have el : dot_S1024x128_S128x128_S1024x128_1_0_0_1_n_n.lhsIdx (ix2 r c) ((contrEquiv1 dot_S1024x128_S128x128_S1024x128_1_0_0_1_n_n 128 rfl rfl).symm k) = ix2 r k := funext fun a => Fin.ext (by
    match a with
    | ⟨0, _⟩ => exact dotBranch_lhs0 _ _
    | ⟨1, _⟩ => exact (dotBranch_lhs1 _ _).trans hk)
  have er : dot_S1024x128_S128x128_S1024x128_1_0_0_1_n_n.rhsIdx (ix2 r c) ((contrEquiv1 dot_S1024x128_S128x128_S1024x128_1_0_0_1_n_n 128 rfl rfl).symm k) = ix2 k c := funext fun a => Fin.ext (by
    match a with
    | ⟨0, _⟩ => exact (dotBranch_rhs0 _ _).trans hk
    | ⟨1, _⟩ => exact dotBranch_rhs1 _ _)
  rw [el, er]

/-! ## The stages at an index -/

/-- Normalize-and-activate at `(r, h)` is `silu` of the layer normalization of row `r`. -/
theorem normAct_apply (v : FVec Ideal S1024x128 .f32) (scale shift : Vec Ideal S1x128 .f32) (r : Fin 1024) (h : Fin 128) :
    normAct v scale shift (ix2 r h)
      = silu (layerNorm (fun j => v (ix2 r j)) (fun j => scale (ix2 (0 : Fin 1) j)) (fun j => shift (ix2 (0 : Fin 1) j)) h) := by
  unfold normAct
  simp only [mulf_apply, addf_apply, subf_apply, divf_apply, broadcast_apply, colBcast_apply,
    Idealize.ShloMosaic.rsqrt, Idealize.ShloMosaic.logistic]
  rw [paramRow_apply, paramRow_apply, rowSum_apply v r 0, rowSum_apply _ r 0]
  simp only [mulf_apply, subf_apply, divf_apply, broadcast_apply, colBcast_apply]
  rw [rowSum_apply v r 0]
  rfl

/-- The linear layer at `(r, o)`. -/
theorem linear_apply (a : FVec Ideal S1024x128 .bf16) (w : Vec Ideal S1x128x128 .bf16) (b : Vec Ideal S1x128 .f32) (r : Fin 1024) (o : Fin 128) :
    linear a w b (ix2 r o)
      = dense (fun k => a (ix2 r k)) (fun k o' => w (ix3 (0 : Fin 1) k o')) (fun j => b (ix2 (0 : Fin 1) j)) o := by
  unfold linear dense
  rw [addf_apply, paramRow_apply, dotBranch_apply]
  simp only [shapeCast_1ab_ab_apply]

/-- The shared first layer at `(r, j)`. -/
theorem firstLayer_apply (v0 : Vec Ideal S1024x128 .f32) (v2 : Vec Ideal S128x1024 .bf16) (v4 : Vec Ideal S1x1024 .f32) (r : Fin 1024) (j : Fin 1024) :
    k0_pay1 v0 v2 v4 (ix2 r j) = (∑ k : Fin 128, v0 (ix2 r k) * v2 (ix2 k j)) + v4 (ix2 (0 : Fin 1) j) := by
  rw [firstLayer_eq, addf_apply, dotFirst_apply, broadcastTo_1b_ab_apply, shapeCast_self, shapeCast_self]
  rfl

/-- A branch's slab at `(u, r, o)` (its leading axis has one coordinate) is the branch function of row `r` of its columns. -/
theorem branchBlock_apply (v : FVec Ideal S1024x128 .f32) (g1 c1 : Vec Ideal S1x128 .f32) (w2 : Vec Ideal S1x128x128 .bf16) (d2 g2 c2 : Vec Ideal S1x128 .f32)
    (w3 : Vec Ideal S1x128x128 .bf16) (d3 : Vec Ideal S1x128 .f32) (u : Fin 1) (r : Fin 1024) (o : Fin 128) :
    branchBlock v g1 c1 w2 d2 g2 c2 w3 d3 (ix3 u r o)
      = branchOut (fun h => v (ix2 r h)) (fun j => g1 (ix2 (0 : Fin 1) j)) (fun j => c1 (ix2 (0 : Fin 1) j)) (fun k o' => w2 (ix3 (0 : Fin 1) k o'))
          (fun j => d2 (ix2 (0 : Fin 1) j)) (fun j => g2 (ix2 (0 : Fin 1) j)) (fun j => c2 (ix2 (0 : Fin 1) j)) (fun k o' => w3 (ix3 (0 : Fin 1) k o'))
          (fun j => d3 (ix2 (0 : Fin 1) j)) o := by
  unfold branchBlock branchOut
  rw [shapeCast_ab_1ab_apply, linear_apply]
  simp only [truncf_apply, normAct_apply, linear_apply]

end Cert.BranchMlp.Kernel

end
-- ==== Proof.KernelBlock.lean ====
/-
  The output block of one grid point as a function of the point's eleven input blocks.

  The body stores eight slabs, slab `n` at rows `(n, ·, ·)` of the [8, 1024, 128] block; slab `n` is the branch chain of
  columns `128 n … 128 n + 127` of the shared first layer and of row `n` of each parameter block (the loads go through the
  unit rectangles at row `n`). So the block at `(n, r, o)` is `branchOut` of row `r` of the first layer restricted to
  branch `n`'s columns, with branch `n`'s parameters: `blockOutAt`.
-/
import proofs.«115626_j48782238548455_1_alg».proof.Proof.Gen.KernelIdeal.Frame
import proofs.«115626_j48782238548455_1_alg».proof.Proof.KernelIndex

noncomputable section

open scoped BigOperators

namespace Cert.BranchMlp.Kernel

open Cert.KernelIdeal Cert.KernelIdeal.Gen Idealize.ShloMosaic Idealize.ShloMosaic.ValueIdx Cert.BranchMlp

/-- The output block at `(n, r, o)` from the input blocks: the first layer's row `r` on branch `n`'s columns, through
    branch `n`'s chain. The weight blocks are laid out input lane by output lane. -/
def blockOutAt (x0 : Vec Ideal S1024x128 .f32) (x1 : Vec Ideal S128x1024 .bf16) (x2 : Vec Ideal S1x1024 .f32) (x3 x4 : Vec Ideal S8x128 .f32) (x5 : Vec Ideal S8x128x128 .bf16) (x6 x7 x8 : Vec Ideal S8x128 .f32) (x9 : Vec Ideal S8x128x128 .bf16) (x10 : Vec Ideal S8x128 .f32) (n : Fin 8) (r : Fin 1024) (o : Fin 128) : EReal :=
  branchOut (fun h => (∑ k : Fin 128, x0 (ix2 r k) * x1 (ix2 k (col n h))) + x2 (ix2 (0 : Fin 1) (col n h)))
    (fun j => x3 (ix2 n j)) (fun j => x4 (ix2 n j)) (fun k o' => x5 (ix3 n k o')) (fun j => x6 (ix2 n j)) (fun j => x7 (ix2 n j))
    (fun j => x8 (ix2 n j)) (fun k o' => x9 (ix3 n k o')) (fun j => x10 (ix2 n j)) o

/-- A parameter row loaded through the unit rectangle at row `n` of an [8, 128] block. -/
theorem ldRow_apply (x : Vec Ideal S8x128 .f32) (n : ℕ) (hn : n < 8) (inbA : ∀ a, (![n, 0] : Fin 2 → ℕ) a + S1x128.size a ≤ S8x128.size a) (j : Fin 128) :
    View.ld x (Rect.unit (s := S8x128) ![n, 0] S1x128.size inbA) (ix2 (0 : Fin 1) j) = x (ix2 (⟨n, hn⟩ : Fin 8) j) :=
  congrArg x (funext fun a => Fin.ext (by
    match a with
    | ⟨0, _⟩ => show n + 1 * 0 = n; omega
    | ⟨1, _⟩ => show 0 + 1 * j.val = j.val; omega))

/-- A weight matrix loaded through the unit rectangle at row `n` of an [8, 128, 128] block. -/
theorem ldMat_apply (x : Vec Ideal S8x128x128 .bf16) (n : ℕ) (hn : n < 8) (inbB : ∀ a, (![n, 0, 0] : Fin 3 → ℕ) a + S1x128x128.size a ≤ S8x128x128.size a) (k o : Fin 128) :
    View.ld x (Rect.unit (s := S8x128x128) ![n, 0, 0] S1x128x128.size inbB) (ix3 (0 : Fin 1) k o) = x (ix3 (⟨n, hn⟩ : Fin 8) k o) :=
  congrArg x (funext fun a => Fin.ext (by
    match a with
    | ⟨0, _⟩ => show n + 1 * 0 = n; omega
    | ⟨1, _⟩ => show 0 + 1 * k.val = k.val; omega
    | ⟨2, _⟩ => show 0 + 1 * o.val = o.val; omega))

/-- Branch `n`'s columns of the first layer: the slice from column `128 n` reads, at `(r, h)`, the tile at `(r, 128 n + h)`. -/
theorem sliceCol_apply (V : FVec Ideal S1024x1024 .f32) (n : ℕ) (hn : n < 8) (sl : S1024x1024.Slices ![0, n * 128] S1024x128) (r : Fin 1024) (h : Fin 128) :
    extractStridedSlice S1024x128 ![0, n * 128] V sl (ix2 r h) = V (ix2 r (col ⟨n, hn⟩ h)) :=
  slice2_axis1_apply (n * 128) V sl r h (col ⟨n, hn⟩ h) rfl

theorem zeros2 : (![0, 0] : Fin 2 → ℕ) = fun _ => 0 := funext fun a => by match a with | ⟨0, _⟩ => rfl | ⟨1, _⟩ => rfl

/-- Slab `n` at `(u, r, o)`, from the input blocks. -/
theorem slab_apply (x0 : Vec Ideal S1024x128 .f32) (x1 : Vec Ideal S128x1024 .bf16) (x2 : Vec Ideal S1x1024 .f32) (x3 x4 : Vec Ideal S8x128 .f32) (x5 : Vec Ideal S8x128x128 .bf16) (x6 x7 x8 : Vec Ideal S8x128 .f32) (x9 : Vec Ideal S8x128x128 .bf16) (x10 : Vec Ideal S8x128 .f32) (n : ℕ) (hn : n < 8) (sl : S1024x1024.Slices ![0, n * 128] S1024x128)
    (inbA : ∀ a, (![n, 0] : Fin 2 → ℕ) a + S1x128.size a ≤ S8x128.size a) (inbB : ∀ a, (![n, 0, 0] : Fin 3 → ℕ) a + S1x128x128.size a ≤ S8x128x128.size a)
    (u : Fin 1) (r : Fin 1024) (o : Fin 128) :
    branchBlock (extractStridedSlice S1024x128 ![0, n * 128] (k0_pay1 (View.ld x0 r0_0) (View.ld x1 r0_1) (View.ld x2 r0_2)) sl)
      (View.ld x3 (Rect.unit (s := S8x128) ![n, 0] S1x128.size inbA)) (View.ld x4 (Rect.unit (s := S8x128) ![n, 0] S1x128.size inbA)) (View.ld x5 (Rect.unit (s := S8x128x128) ![n, 0, 0] S1x128x128.size inbB)) (View.ld x6 (Rect.unit (s := S8x128) ![n, 0] S1x128.size inbA)) (View.ld x7 (Rect.unit (s := S8x128) ![n, 0] S1x128.size inbA)) (View.ld x8 (Rect.unit (s := S8x128) ![n, 0] S1x128.size inbA)) (View.ld x9 (Rect.unit (s := S8x128x128) ![n, 0, 0] S1x128x128.size inbB)) (View.ld x10 (Rect.unit (s := S8x128) ![n, 0] S1x128.size inbA)) (ix3 u r o)
      = blockOutAt x0 x1 x2 x3 x4 x5 x6 x7 x8 x9 x10 ⟨n, hn⟩ r o := by
  have e0 : View.ld x0 r0_0 = x0 := View.ld_unit_zero zeros2 _ x0
  have e1 : View.ld x1 r0_1 = x1 := View.ld_unit_zero zeros2 _ x1
  have e2 : View.ld x2 r0_2 = x2 := View.ld_unit_zero zeros2 _ x2
  rw [branchBlock_apply, e0, e1, e2]
  unfold blockOutAt
  simp only [sliceCol_apply _ n hn, firstLayer_apply]
  congr 1 <;> first
    | (funext j; exact ldRow_apply _ n hn inbA j)
    | (funext k o'; exact ldMat_apply _ n hn inbB k o')

/-- A slab stored through the unit rectangle at rows `(k, ·, ·)` agrees with a function of the block's coordinates as
    soon as it does at every `(u, r, o)`. -/
theorem slab_ok (k : ℕ) (hk : k < 8) (inb : ∀ a, (![k, 0, 0] : Fin 3 → ℕ) a + S1x1024x128.size a ≤ S8x1024x128.size a)
    (P : FVec Ideal S1x1024x128 .f32) (G : Fin 8 → Fin 1024 → Fin 128 → EReal)
    (h : ∀ (u : Fin 1) (r : Fin 1024) (o : Fin 128), P (ix3 u r o) = G ⟨k, hk⟩ r o) :
    ∀ x : (Rect.unit (s := S8x1024x128) ![k, 0, 0] S1x1024x128.size inb).shape.Idx,
      P x = (fun y : S8x1024x128.Idx => G (y 0) (y 1) (y 2)) ((Rect.unit (s := S8x1024x128) ![k, 0, 0] S1x1024x128.size inb).emb x) := by
  intro x
  have h0 : (x 0).val < 1 := (x 0).isLt
  refine ((congrArg P (eq_ix3 x)).trans (h (x 0) (x 1) (x 2))).trans ?_
  show G ⟨k, hk⟩ (x 1) (x 2) = G _ _ _
  congr 1
  · exact Fin.ext (by show k = k + 1 * (x 0).val; omega)
  · exact Fin.ext (by show (x 1).val = 0 + 1 * (x 1).val; omega)
  · exact Fin.ext (by show (x 2).val = 0 + 1 * (x 2).val; omega)

/-- The output block at `(n, r, o)`. -/
theorem out_apply (x0 : Vec Ideal S1024x128 .f32) (x1 : Vec Ideal S128x1024 .bf16) (x2 : Vec Ideal S1x1024 .f32) (x3 x4 : Vec Ideal S8x128 .f32) (x5 : Vec Ideal S8x128x128 .bf16) (x6 x7 x8 : Vec Ideal S8x128 .f32) (x9 : Vec Ideal S8x128x128 .bf16) (x10 : Vec Ideal S8x128 .f32) (n : Fin 8) (r : Fin 1024) (o : Fin 128) :
    out0_11 x0 x1 x2 x3 x4 x5 x6 x7 x8 x9 x10 (ix3 n r o) = blockOutAt x0 x1 x2 x3 x4 x5 x6 x7 x8 x9 x10 n r o := by
  unfold out0_11
  refine View.canon_apply_of_pieces (fun y : S8x1024x128.Idx => blockOutAt x0 x1 x2 x3 x4 x5 x6 x7 x8 x9 x10 (y 0) (y 1) (y 2)) _ ?_ (ix3 n r o)
    (cover0_11 (F := Ideal) _ _ _ _ _ _ _ _ (ix3 n r o))
  intro p hp
  simp only [List.mem_cons, List.not_mem_nil, or_false] at hp
  rcases hp with rfl | rfl | rfl | rfl | rfl | rfl | rfl | rfl
  · exact slab_ok 7 (by decide) inb_S8x1024x128_S1x1024x128_7_0_0 _ (blockOutAt x0 x1 x2 x3 x4 x5 x6 x7 x8 x9 x10) (fun u r o => (congrFun (slab7 (k0_pay1 (View.ld x0 r0_0) (View.ld x1 r0_1) (View.ld x2 r0_2)) (View.ld x3 r0_24) (View.ld x4 r0_24) (View.ld x5 r0_25) (View.ld x6 r0_24) (View.ld x7 r0_24) (View.ld x8 r0_24) (View.ld x9 r0_25) (View.ld x10 r0_24)) (ix3 u r o)).trans (slab_apply x0 x1 x2 x3 x4 x5 x6 x7 x8 x9 x10 7 (by decide) _ _ _ u r o))
  · exact slab_ok 6 (by decide) inb_S8x1024x128_S1x1024x128_6_0_0 _ (blockOutAt x0 x1 x2 x3 x4 x5 x6 x7 x8 x9 x10) (fun u r o => (congrFun (slab6 (k0_pay1 (View.ld x0 r0_0) (View.ld x1 r0_1) (View.ld x2 r0_2)) (View.ld x3 r0_21) (View.ld x4 r0_21) (View.ld x5 r0_22) (View.ld x6 r0_21) (View.ld x7 r0_21) (View.ld x8 r0_21) (View.ld x9 r0_22) (View.ld x10 r0_21)) (ix3 u r o)).trans (slab_apply x0 x1 x2 x3 x4 x5 x6 x7 x8 x9 x10 6 (by decide) _ _ _ u r o))
  · exact slab_ok 5 (by decide) inb_S8x1024x128_S1x1024x128_5_0_0 _ (blockOutAt x0 x1 x2 x3 x4 x5 x6 x7 x8 x9 x10) (fun u r o => (congrFun (slab5 (k0_pay1 (View.ld x0 r0_0) (View.ld x1 r0_1) (View.ld x2 r0_2)) (View.ld x3 r0_18) (View.ld x4 r0_18) (View.ld x5 r0_19) (View.ld x6 r0_18) (View.ld x7 r0_18) (View.ld x8 r0_18) (View.ld x9 r0_19) (View.ld x10 r0_18)) (ix3 u r o)).trans (slab_apply x0 x1 x2 x3 x4 x5 x6 x7 x8 x9 x10 5 (by decide) _ _ _ u r o))
  · exact slab_ok 4 (by decide) inb_S8x1024x128_S1x1024x128_4_0_0 _ (blockOutAt x0 x1 x2 x3 x4 x5 x6 x7 x8 x9 x10) (fun u r o => (congrFun (slab4 (k0_pay1 (View.ld x0 r0_0) (View.ld x1 r0_1) (View.ld x2 r0_2)) (View.ld x3 r0_15) (View.ld x4 r0_15) (View.ld x5 r0_16) (View.ld x6 r0_15) (View.ld x7 r0_15) (View.ld x8 r0_15) (View.ld x9 r0_16) (View.ld x10 r0_15)) (ix3 u r o)).trans (slab_apply x0 x1 x2 x3 x4 x5 x6 x7 x8 x9 x10 4 (by decide) _ _ _ u r o))
  · exact slab_ok 3 (by decide) inb_S8x1024x128_S1x1024x128_3_0_0 _ (blockOutAt x0 x1 x2 x3 x4 x5 x6 x7 x8 x9 x10) (fun u r o => (congrFun (slab3 (k0_pay1 (View.ld x0 r0_0) (View.ld x1 r0_1) (View.ld x2 r0_2)) (View.ld x3 r0_12) (View.ld x4 r0_12) (View.ld x5 r0_13) (View.ld x6 r0_12) (View.ld x7 r0_12) (View.ld x8 r0_12) (View.ld x9 r0_13) (View.ld x10 r0_12)) (ix3 u r o)).trans (slab_apply x0 x1 x2 x3 x4 x5 x6 x7 x8 x9 x10 3 (by decide) _ _ _ u r o))
  · exact slab_ok 2 (by decide) inb_S8x1024x128_S1x1024x128_2_0_0 _ (blockOutAt x0 x1 x2 x3 x4 x5 x6 x7 x8 x9 x10) (fun u r o => (congrFun (slab2 (k0_pay1 (View.ld x0 r0_0) (View.ld x1 r0_1) (View.ld x2 r0_2)) (View.ld x3 r0_9) (View.ld x4 r0_9) (View.ld x5 r0_10) (View.ld x6 r0_9) (View.ld x7 r0_9) (View.ld x8 r0_9) (View.ld x9 r0_10) (View.ld x10 r0_9)) (ix3 u r o)).trans (slab_apply x0 x1 x2 x3 x4 x5 x6 x7 x8 x9 x10 2 (by decide) _ _ _ u r o))
  · exact slab_ok 1 (by decide) inb_S8x1024x128_S1x1024x128_1_0_0 _ (blockOutAt x0 x1 x2 x3 x4 x5 x6 x7 x8 x9 x10) (fun u r o => (congrFun (slab1 (k0_pay1 (View.ld x0 r0_0) (View.ld x1 r0_1) (View.ld x2 r0_2)) (View.ld x3 r0_6) (View.ld x4 r0_6) (View.ld x5 r0_7) (View.ld x6 r0_6) (View.ld x7 r0_6) (View.ld x8 r0_6) (View.ld x9 r0_7) (View.ld x10 r0_6)) (ix3 u r o)).trans (slab_apply x0 x1 x2 x3 x4 x5 x6 x7 x8 x9 x10 1 (by decide) _ _ _ u r o))
  · exact slab_ok 0 (by decide) inb_S8x1024x128_S1x1024x128_0_0_0 _ (blockOutAt x0 x1 x2 x3 x4 x5 x6 x7 x8 x9 x10) (fun u r o => (congrFun (slab0 (View.ld x0 r0_0) (View.ld x1 r0_1) (View.ld x2 r0_2) (View.ld x3 r0_3) (View.ld x4 r0_3) (View.ld x5 r0_4) (View.ld x6 r0_3) (View.ld x7 r0_3) (View.ld x8 r0_3) (View.ld x9 r0_4) (View.ld x10 r0_3)) (ix3 u r o)).trans (slab_apply x0 x1 x2 x3 x4 x5 x6 x7 x8 x9 x10 0 (by decide) _ _ _ u r o))

end Cert.BranchMlp.Kernel

end
-- ==== Proof.KernelArray.lean ====
/-
  From blocks to the array, on the kernel's side.

  The kernel walks the 65536 rows of its first argument in 64 blocks of 1024 rows; at each point it reads that block,
  and the whole of every other array, and writes back an [8, 1024, 128] block of the result: all eight branches of those
  1024 rows. The arrays it reads besides the arguments themselves are re-layouts the program makes before the walk: the
  first layer's weights transposed, its bias as one row, and each branch's second and third weight matrices transposed
  (the changes of number format are the identity on extended reals).

  Here: those re-layouts read at an index; each window's block at a point as entries of the argument arrays; so, with the
  body's result at an index of the block (`out_apply`), what a point writes back is its block of the specification
  `Cert.BranchMlp.result` of the eleven arguments; the 64 blocks cover the result array; hence the run ends with the
  result array equal to the specification, the arguments unchanged.
-/
import proofs.«115626_j48782238548455_1_alg».proof.Proof.Gen.KernelIdeal.Value
import proofs.«115626_j48782238548455_1_alg».proof.Proof.KernelBlock
import proofs.«115626_j48782238548455_1_alg».proof.Proof.Spec
import Idealize.ShloMosaic.Lib.ValueLayout

noncomputable section

open scoped BigOperators

namespace Cert.BranchMlp.Kernel

open Cert.KernelIdeal Cert.KernelIdeal.Gen Idealize.ShloMosaic Idealize.ShloMosaic.TcCoe Idealize.SL.Sem
open Idealize.ShloMosaic.ValueIdx Cert.BranchMlp
open Idealize.ShloMosaic.Pipeline (Dat)

variable (m : (ℓ : Loc nD τ sig) → Buf (Elt Ideal) ℓ) (ρ : Dev nD → PrngReg)

/-! ## The arrays the host operations write before the region, read at an index -/

/-- The first layer's weights as the region finds them: the argument transposed (the format change is the identity
    on extended reals). -/
theorem V_main_v1 (c : Dev nD) : (V m c main_v1 : S128x1024.Idx → EReal)
    = truncf (F := Ideal) .bf16 (transpose S128x1024 [1, 0] (m ((c : Thread nD τ).loc main_arg1)) transposes_S1024x128_S128x1024_1_0) bitsLt_bf16_f32 := by
  dsimp only [Gen.V, Gen.hostOps0]; after_results

/-- Entry `(k, j)` of the transposed first-layer weights is entry `(j, k)` of the argument. -/
theorem V_main_v1_apply (c : Dev nD) (k : Fin 128) (j : Fin 1024) :
    (V m c main_v1 : S128x1024.Idx → EReal) (ix2 k j) = (m ((c : Thread nD τ).loc main_arg1) : S1024x128.Idx → EReal) (ix2 j k) := by
  rw [V_main_v1]
  exact transpose_ix2_apply _ _ k j

/-- The first layer's bias as the region finds it: the argument as one row. -/
theorem V_main_v2 (c : Dev nD) : (V m c main_v2 : S1x1024.Idx → EReal)
    = shapeCast S1x1024 (m ((c : Thread nD τ).loc main_arg2)) shapeCasts_S1024_S1x1024 := by
  dsimp only [Gen.V, Gen.hostOps0]; after_results; rfl

/-- Entry `(0, j)` of the bias row is entry `j` of the argument. -/
theorem V_main_v2_apply (c : Dev nD) (u : Fin 1) (j : Fin 1024) :
    (V m c main_v2 : S1x1024.Idx → EReal) (ix2 u j) = (m ((c : Thread nD τ).loc main_arg2) : S1024.Idx → EReal) (ix1 j) := by
  rw [V_main_v2]
  exact shapeCast_a_1a_apply _ _ u j

/-- The second layer's weights as the region finds them: each branch's matrix transposed. -/
theorem V_main_v4 (c : Dev nD) : (V m c main_v4 : S8x128x128.Idx → EReal)
    = truncf (F := Ideal) .bf16 (transpose S8x128x128 [0, 2, 1] (m ((c : Thread nD τ).loc main_arg5)) transposes_S8x128x128_S8x128x128_0_2_1) bitsLt_bf16_f32 := by
  dsimp only [Gen.V, Gen.hostOps0]; after_results

/-- Entry `(n, k, o)` of the transposed second-layer weights is entry `(n, o, k)` of the argument. -/
theorem V_main_v4_apply (c : Dev nD) (n : Fin 8) (k o : Fin 128) :
    (V m c main_v4 : S8x128x128.Idx → EReal) (ix3 n k o) = (m ((c : Thread nD τ).loc main_arg5) : S8x128x128.Idx → EReal) (ix3 n o k) := by
  rw [V_main_v4]
  exact transpose_ix3_021_apply _ _ n k o

/-- The third layer's weights as the region finds them: each branch's matrix transposed. -/
theorem V_main_v6 (c : Dev nD) : (V m c main_v6 : S8x128x128.Idx → EReal)
    = truncf (F := Ideal) .bf16 (transpose S8x128x128 [0, 2, 1] (m ((c : Thread nD τ).loc main_arg9)) transposes_S8x128x128_S8x128x128_0_2_1) bitsLt_bf16_f32 := by
  dsimp only [Gen.V, Gen.hostOps0]; after_results

/-- Entry `(n, k, o)` of the transposed third-layer weights is entry `(n, o, k)` of the argument. -/
theorem V_main_v6_apply (c : Dev nD) (n : Fin 8) (k o : Fin 128) :
    (V m c main_v6 : S8x128x128.Idx → EReal) (ix3 n k o) = (m ((c : Thread nD τ).loc main_arg9) : S8x128x128.Idx → EReal) (ix3 n o k) := by
  rw [V_main_v6]
  exact transpose_ix3_021_apply _ _ n k o

/-! ## The windows' block indices over the grid

Window 0 walks the rows of the first argument a block of 1024 rows per point; the result's window walks the
result's rows the same way; every other window is its whole array at every point. Decided once over the 64 points. -/

theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 2) = 0 ∧ win0_2.index t (1 : Fin 2) = 0 :=
  (by decide +kernel : ∀ t : Fin grid0.N, _)
theorem index3 : ∀ t : Fin cfg0.N, win0_3.index t (0 : Fin 2) = 0 ∧ win0_3.index t (1 : Fin 2) = 0 :=
  (by decide +kernel : ∀ t : Fin grid0.N, _)
theorem index4 : ∀ t : Fin cfg0.N, win0_4.index t (0 : Fin 2) = 0 ∧ win0_4.index t (1 : Fin 2) = 0 :=
  (by decide +kernel : ∀ t : Fin grid0.N, _)
theorem index5 : ∀ t : Fin cfg0.N, win0_5.index t (0 : Fin 3) = 0 ∧ win0_5.index t (1 : Fin 3) = 0 ∧ win0_5.index t (2 : Fin 3) = 0 :=
  (by decide +kernel : ∀ t : Fin grid0.N, _)
theorem index6 : ∀ t : Fin cfg0.N, win0_6.index t (0 : Fin 2) = 0 ∧ win0_6.index t (1 : Fin 2) = 0 :=
  (by decide +kernel : ∀ t : Fin grid0.N, _)
theorem index7 : ∀ t : Fin cfg0.N, win0_7.index t (0 : Fin 2) = 0 ∧ win0_7.index t (1 : Fin 2) = 0 :=
  (by decide +kernel : ∀ t : Fin grid0.N, _)
theorem index8 : ∀ t : Fin cfg0.N, win0_8.index t (0 : Fin 2) = 0 ∧ win0_8.index t (1 : Fin 2) = 0 :=
  (by decide +kernel : ∀ t : Fin grid0.N, _)
theorem index9 : ∀ t : Fin cfg0.N, win0_9.index t (0 : Fin 3) = 0 ∧ win0_9.index t (1 : Fin 3) = 0 ∧ win0_9.index t (2 : Fin 3) = 0 :=
  (by decide +kernel : ∀ t : Fin grid0.N, _)
theorem index10 : ∀ t : Fin cfg0.N, win0_10.index t (0 : Fin 2) = 0 ∧ win0_10.index t (1 : Fin 2) = 0 :=
  (by decide +kernel : ∀ t : Fin grid0.N, _)
theorem index11 : ∀ t : Fin cfg0.N, win0_11.index t (0 : Fin 3) = 0 ∧ win0_11.index t (1 : Fin 3) = t.val ∧ win0_11.index t (2 : Fin 3) = 0 :=
  (by decide +kernel : ∀ t : Fin grid0.N, _)

/-- A grid point is one of 64. -/
theorem point_lt (t : Fin cfg0.N) : t.val < 64 := lt_of_lt_of_eq t.isLt N_0

/-- Row `r` of the block of 1024 rows at point `t`, among the 65536 rows. -/
abbrev rowOf (t : Fin cfg0.N) (r : Fin 1024) : Fin 65536 :=
  ⟨1024 * t.val + r.val, by have := point_lt t; have := r.isLt; omega⟩

/-! ## The input windows' blocks, read at an index -/

/-- Window 0's block at point `t` is rows `1024 t … 1024 t + 1023` of the first argument. -/
theorem iblk0_apply (c : Dev nD) (t : Fin cfg0.N) (r : Fin 1024) (k : Fin 128) :
    (iblk m c 0 t : Vec Ideal S1024x128 .f32) (ix2 r k)
      = (m ((c : Thread nD τ).loc main_arg0) : S65536x128.Idx → EReal) (ix2 (rowOf t r) k) := by
  unfold iblk
  rw [View.read_apply]
  show V m c main_arg0 _ = m (c.tc.loc main_arg0) _
  rw [V_main_arg0]
  congr 1
  funext a
  apply Fin.ext
  match a with
  | ⟨0, _⟩ => show win0_0.index t (0 : Fin 2) * 1024 + 1 * r.val = 1024 * t.val + r.val; rw [(index0 t).1]; omega
  | ⟨1, _⟩ => show win0_0.index t (1 : Fin 2) * 128 + 1 * k.val = k.val; rw [(index0 t).2]; omega

/-- Window 1 is its whole array at every point: the first layer's weights transposed. -/
theorem iblk1_apply (c : Dev nD) (t : Fin cfg0.N) (k : Fin 128) (j : Fin 1024) :
    (iblk m c 1 t : Vec Ideal S128x1024 .bf16) (ix2 k j) = (m ((c : Thread nD τ).loc main_arg1) : S1024x128.Idx → EReal) (ix2 j k) := by
  refine Eq.trans ?_ (V_main_v1_apply m c k j)
  unfold iblk
  rw [View.read_apply]
  show V m c main_v1 _ = V m c main_v1 _
  congr 1
  funext a
  apply Fin.ext
  match a with
  | ⟨0, _⟩ => show win0_1.index t (0 : Fin 2) * 128 + 1 * k.val = k.val; rw [(index1 t).1]; omega
  | ⟨1, _⟩ => show win0_1.index t (1 : Fin 2) * 1024 + 1 * j.val = j.val; rw [(index1 t).2]; omega

/-- Window 2 is its whole array at every point: the first layer's bias as one row. -/
theorem iblk2_apply (c : Dev nD) (t : Fin cfg0.N) (u : Fin 1) (j : Fin 1024) :
    (iblk m c 2 t : Vec Ideal S1x1024 .f32) (ix2 u j) = (m ((c : Thread nD τ).loc main_arg2) : S1024.Idx → EReal) (ix1 j) := by
  refine Eq.trans ?_ (V_main_v2_apply m c u j)
  unfold iblk
  rw [View.read_apply]
  show V m c main_v2 _ = V m c main_v2 _
  congr 1
  funext a
  apply Fin.ext
  match a with
  | ⟨0, _⟩ => show win0_2.index t (0 : Fin 2) * 1 + 1 * u.val = u.val; rw [(index2 t).1]; omega
  | ⟨1, _⟩ => show win0_2.index t (1 : Fin 2) * 1024 + 1 * j.val = j.val; rw [(index2 t).2]; omega

/-- Window 3 is its whole array at every point: argument 3 itself. -/
theorem iblk3_apply (c : Dev nD) (t : Fin cfg0.N) (n : Fin 8) (j : Fin 128) :
    (iblk m c 3 t : Vec Ideal S8x128 .f32) (ix2 n j) = (m ((c : Thread nD τ).loc main_arg3) : S8x128.Idx → EReal) (ix2 n j) := by
  unfold iblk
  rw [View.read_apply]
  show V m c main_arg3 _ = m (c.tc.loc main_arg3) _
  rw [V_main_arg3]
  congr 1
  funext a
  apply Fin.ext
  match a with
  | ⟨0, _⟩ => show win0_3.index t (0 : Fin 2) * 8 + 1 * n.val = n.val; rw [(index3 t).1]; omega
  | ⟨1, _⟩ => show win0_3.index t (1 : Fin 2) * 128 + 1 * j.val = j.val; rw [(index3 t).2]; omega

/-- Window 4 is its whole array at every point: argument 4 itself. -/
theorem iblk4_apply (c : Dev nD) (t : Fin cfg0.N) (n : Fin 8) (j : Fin 128) :
    (iblk m c 4 t : Vec Ideal S8x128 .f32) (ix2 n j) = (m ((c : Thread nD τ).loc main_arg4) : S8x128.Idx → EReal) (ix2 n j) := by
  unfold iblk
  rw [View.read_apply]
  show V m c main_arg4 _ = m (c.tc.loc main_arg4) _
  rw [V_main_arg4]
  congr 1
  funext a
  apply Fin.ext
  match a with
  | ⟨0, _⟩ => show win0_4.index t (0 : Fin 2) * 8 + 1 * n.val = n.val; rw [(index4 t).1]; omega
  | ⟨1, _⟩ => show win0_4.index t (1 : Fin 2) * 128 + 1 * j.val = j.val; rw [(index4 t).2]; omega

/-- Window 5 is its whole array at every point: the second layer's weights transposed per branch. -/
theorem iblk5_apply (c : Dev nD) (t : Fin cfg0.N) (n : Fin 8) (k o : Fin 128) :
    (iblk m c 5 t : Vec Ideal S8x128x128 .bf16) (ix3 n k o) = (m ((c : Thread nD τ).loc main_arg5) : S8x128x128.Idx → EReal) (ix3 n o k) := by
  refine Eq.trans ?_ (V_main_v4_apply m c n k o)
  unfold iblk
  rw [View.read_apply]
  show V m c main_v4 _ = V m c main_v4 _
  congr 1
  funext a
  apply Fin.ext
  match a with
  | ⟨0, _⟩ => show win0_5.index t (0 : Fin 3) * 8 + 1 * n.val = n.val; rw [(index5 t).1]; omega
  | ⟨1, _⟩ => show win0_5.index t (1 : Fin 3) * 128 + 1 * k.val = k.val; rw [(index5 t).2.1]; omega
  | ⟨2, _⟩ => show win0_5.index t (2 : Fin 3) * 128 + 1 * o.val = o.val; rw [(index5 t).2.2]; omega

/-- Window 6 is its whole array at every point: argument 6 itself. -/
theorem iblk6_apply (c : Dev nD) (t : Fin cfg0.N) (n : Fin 8) (j : Fin 128) :
    (iblk m c 6 t : Vec Ideal S8x128 .f32) (ix2 n j) = (m ((c : Thread nD τ).loc main_arg6) : S8x128.Idx → EReal) (ix2 n j) := by
  unfold iblk
  rw [View.read_apply]
  show V m c main_arg6 _ = m (c.tc.loc main_arg6) _
  rw [V_main_arg6]
  congr 1
  funext a
  apply Fin.ext
  match a with
  | ⟨0, _⟩ => show win0_6.index t (0 : Fin 2) * 8 + 1 * n.val = n.val; rw [(index6 t).1]; omega
  | ⟨1, _⟩ => show win0_6.index t (1 : Fin 2) * 128 + 1 * j.val = j.val; rw [(index6 t).2]; omega

/-- Window 7 is its whole array at every point: argument 7 itself. -/
theorem iblk7_apply (c : Dev nD) (t : Fin cfg0.N) (n : Fin 8) (j : Fin 128) :
    (iblk m c 7 t : Vec Ideal S8x128 .f32) (ix2 n j) = (m ((c : Thread nD τ).loc main_arg7) : S8x128.Idx → EReal) (ix2 n j) := by
  unfold iblk
  rw [View.read_apply]
  show V m c main_arg7 _ = m (c.tc.loc main_arg7) _
  rw [V_main_arg7]
  congr 1
  funext a
  apply Fin.ext
  match a with
  | ⟨0, _⟩ => show win0_7.index t (0 : Fin 2) * 8 + 1 * n.val = n.val; rw [(index7 t).1]; omega
  | ⟨1, _⟩ => show win0_7.index t (1 : Fin 2) * 128 + 1 * j.val = j.val; rw [(index7 t).2]; omega

/-- Window 8 is its whole array at every point: argument 8 itself. -/
theorem iblk8_apply (c : Dev nD) (t : Fin cfg0.N) (n : Fin 8) (j : Fin 128) :
    (iblk m c 8 t : Vec Ideal S8x128 .f32) (ix2 n j) = (m ((c : Thread nD τ).loc main_arg8) : S8x128.Idx → EReal) (ix2 n j) := by
  unfold iblk
  rw [View.read_apply]
  show V m c main_arg8 _ = m (c.tc.loc main_arg8) _
  rw [V_main_arg8]
  congr 1
  funext a
  apply Fin.ext
  match a with
  | ⟨0, _⟩ => show win0_8.index t (0 : Fin 2) * 8 + 1 * n.val = n.val; rw [(index8 t).1]; omega
  | ⟨1, _⟩ => show win0_8.index t (1 : Fin 2) * 128 + 1 * j.val = j.val; rw [(index8 t).2]; omega

/-- Window 9 is its whole array at every point: the third layer's weights transposed per branch. -/
theorem iblk9_apply (c : Dev nD) (t : Fin cfg0.N) (n : Fin 8) (k o : Fin 128) :
    (iblk m c 9 t : Vec Ideal S8x128x128 .bf16) (ix3 n k o) = (m ((c : Thread nD τ).loc main_arg9) : S8x128x128.Idx → EReal) (ix3 n o k) := by
  refine Eq.trans ?_ (V_main_v6_apply m c n k o)
  unfold iblk
  rw [View.read_apply]
  show V m c main_v6 _ = V m c main_v6 _
  congr 1
  funext a
  apply Fin.ext
  match a with
  | ⟨0, _⟩ => show win0_9.index t (0 : Fin 3) * 8 + 1 * n.val = n.val; rw [(index9 t).1]; omega
  | ⟨1, _⟩ => show win0_9.index t (1 : Fin 3) * 128 + 1 * k.val = k.val; rw [(index9 t).2.1]; omega
  | ⟨2, _⟩ => show win0_9.index t (2 : Fin 3) * 128 + 1 * o.val = o.val; rw [(index9 t).2.2]; omega

/-- Window 10 is its whole array at every point: argument 10 itself. -/
theorem iblk10_apply (c : Dev nD) (t : Fin cfg0.N) (n : Fin 8) (j : Fin 128) :
    (iblk m c 10 t : Vec Ideal S8x128 .f32) (ix2 n j) = (m ((c : Thread nD τ).loc main_arg10) : S8x128.Idx → EReal) (ix2 n j) := by
  unfold iblk
  rw [View.read_apply]
  show V m c main_arg10 _ = m (c.tc.loc main_arg10) _
  rw [V_main_arg10]
  congr 1
  funext a
  apply Fin.ext
  match a with
  | ⟨0, _⟩ => show win0_10.index t (0 : Fin 2) * 8 + 1 * n.val = n.val; rw [(index10 t).1]; omega
  | ⟨1, _⟩ => show win0_10.index t (1 : Fin 2) * 128 + 1 * j.val = j.val; rw [(index10 t).2]; omega

/-! ## What a point writes back is its block of the specification -/

/-- The branch function depends on its nine data only through their values. -/
theorem branchOut_congr {r r' g1 g1' c1 c1' : Fin 128 → EReal} {A2 A2' : Fin 128 → Fin 128 → EReal}
    {d2 d2' g2 g2' c2 c2' : Fin 128 → EReal} {A3 A3' : Fin 128 → Fin 128 → EReal} {d3 d3' : Fin 128 → EReal}
    (hr : r = r') (hg1 : g1 = g1') (hc1 : c1 = c1') (hA2 : A2 = A2') (hd2 : d2 = d2') (hg2 : g2 = g2') (hc2 : c2 = c2')
    (hA3 : A3 = A3') (hd3 : d3 = d3') (o : Fin 128) :
    branchOut r g1 c1 A2 d2 g2 c2 A3 d3 o = branchOut r' g1' c1' A2' d2' g2' c2' A3' d3' o := by
  subst hr hg1 hc1 hA2 hd2 hg2 hc2 hA3 hd3; rfl

/-- Entry `(n, r, o)` of what the body leaves at point `t` is the specification at branch `n`, row `1024 t + r`,
    lane `o`: the block of rows is the argument's rows `1024 t …`, every other block its whole array. -/
theorem out_point (c : Dev nD) (t : Fin cfg0.N) (n : Fin 8) (r : Fin 1024) (o : Fin 128) :
    out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 n r o)
      = (result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (ix3 n (rowOf t r) o) := by
  refine (out_apply _ _ _ _ _ _ _ _ _ _ _ n r o).trans ?_
  refine branchOut_congr ?_ ?_ ?_ ?_ ?_ ?_ ?_ ?_ ?_ o
  · funext h
    exact congrArg₂ (· + ·)
      (Finset.sum_congr rfl fun k _ => congrArg₂ (· * ·) (iblk0_apply m c t r k) (iblk1_apply m c t k (col n h)))
      (iblk2_apply m c t 0 (col n h))
  · funext j; exact iblk3_apply m c t n j
  · funext j; exact iblk4_apply m c t n j
  · funext k o'; exact iblk5_apply m c t n k o'
  · funext j; exact iblk6_apply m c t n j
  · funext j; exact iblk7_apply m c t n j
  · funext j; exact iblk8_apply m c t n j
  · funext k o'; exact iblk9_apply m c t n k o'
  · funext j; exact iblk10_apply m c t n j

/-- WHAT POINT `t` WRITES BACK is block `t` of the specification of the argument arrays. -/
theorem flushed_eq (c : Dev nD) (t : Fin cfg0.N) :
    (dats m 0 c).flushed 11 t = ((cfg0.win 11).blk t).view.read (Elt Ideal) (result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  rw [Cert.KernelIdeal.Value.flushed11]
  refine funext fun y => ?_
  obtain ⟨n, r, o, rfl⟩ : ∃ (n : Fin 8) (r : Fin 1024) (o : Fin 128), y = ix3 n r o := ⟨y 0, y 1, y 2, eq_ix3 y⟩
  refine Eq.trans ?_ ((out_point m c t n r o).trans ?_)
  · rfl
  · rw [View.read_apply]
    show (result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) _ = (result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) _
    congr 1
    funext a
    apply Fin.ext
    match a with
    | ⟨0, _⟩ => show n.val = win0_11.index t (0 : Fin 3) * 8 + 1 * n.val; rw [(index11 t).1]; omega
    | ⟨1, _⟩ => show 1024 * t.val + r.val = win0_11.index t (1 : Fin 3) * 1024 + 1 * r.val; rw [(index11 t).2.1]; omega
    | ⟨2, _⟩ => show o.val = win0_11.index t (2 : Fin 3) * 128 + 1 * o.val; rw [(index11 t).2.2]; omega

/-! ## The blocks cover the result array -/

/-- An index of the result is in point `t`'s block iff each coordinate is in the block's range on its axis. -/
theorem mem_blk (t : Fin cfg0.N) (i : S8x65536x128.Idx) :
    i ∈ ((cfg0.win 11).blk t).view.set ↔ ∀ a : Fin 3, win0_11.index t a * S8x1024x128.size a ≤ (i a).val ∧ (i a).val < win0_11.index t a * S8x1024x128.size a + S8x1024x128.size a := by
  show i ∈ ((View.whole main_v7).slice (win0_11.rect t)).set ↔ _
  rw [View.set_slice_whole, Rect.mem_set_unit]
  exact Iff.rfl

/-- Every index of the result is in some point's block: row `e` is in the block of point `e / 1024`. -/
theorem cover (i : S8x65536x128.Idx) :
    ∃ t : Fin cfg0.N, (cfg0.win 11).flush t = true ∧ i ∈ ((cfg0.win 11).blk t).view.set := by
  have h0 : (i 0).val < 8 := (i 0).isLt
  have h1 : (i 1).val < 65536 := (i 1).isLt
  have h2 : (i 2).val < 128 := (i 2).isLt
  have ht : (i 1).val / 1024 < cfg0.N := by rw [show cfg0.N = 64 from N_0]; omega
  obtain ⟨e0, e1, e2⟩ := index11 ⟨(i 1).val / 1024, ht⟩
  have e1' : win0_11.index ⟨(i 1).val / 1024, ht⟩ (1 : Fin 3) = (i 1).val / 1024 := e1
  refine ⟨⟨(i 1).val / 1024, ht⟩, flush0_11 _, ?_⟩
  rw [mem_blk]
  intro a
  match a with
  | ⟨0, _⟩ =>
    show win0_11.index ⟨(i 1).val / 1024, ht⟩ (0 : Fin 3) * 8 ≤ (i 0).val
      ∧ (i 0).val < win0_11.index ⟨(i 1).val / 1024, ht⟩ (0 : Fin 3) * 8 + 8
    omega
  | ⟨1, _⟩ =>
    show win0_11.index ⟨(i 1).val / 1024, ht⟩ (1 : Fin 3) * 1024 ≤ (i 1).val
      ∧ (i 1).val < win0_11.index ⟨(i 1).val / 1024, ht⟩ (1 : Fin 3) * 1024 + 1024
    omega
  | ⟨2, _⟩ =>
    show win0_11.index ⟨(i 1).val / 1024, ht⟩ (2 : Fin 3) * 128 ≤ (i 2).val
      ∧ (i 2).val < win0_11.index ⟨(i 1).val / 1024, ht⟩ (2 : Fin 3) * 128 + 128
    omega

/-- THE RESULT ARRAY after the run is the specification of the argument arrays. -/
theorem final (c : Dev nD) : (dats m 0 c).arrAt 11 cfg0.N = (result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) :=
  (dats m 0 c).arrAt_eq_of_cover 11 (result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (fun t _ => flushed_eq m c t) cover

/-! ## The run -/

/-- The kernel's run: the result array at the specification of the eleven argument arrays, the arguments unchanged. -/
theorem kernel_run : θ_run (defs (F := Ideal)) (onTc (τ := τ) (main (F := Ideal))) ⟨m, fun _ => 0, ρ⟩ fun r => ∀ c : Dev nD,
      r.2.mem ((c : Thread nD τ).loc main_v7) = (result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (Cert.KernelIdeal.Value.run_blocks m ρ)

end Cert.BranchMlp.Kernel

end
-- ==== Proof.lean ====
/-
  The kernel and its reference compute one function on the extended reals.

  Both programs evaluate an 8-branch network on 65536 rows of 128 lanes: a first linear layer shared by the branches
  (`x · W1ᵀ + b1`, branch `n` owning columns `128 n … 128 n + 127`), and per branch twice "normalize the row, apply
  `z · logistic z`, linear layer with bias". The kernel does it tile by tile (1024 rows per grid point, all parameters
  resident, one matrix product for the eight branches' first layer, eight slabs stored per tile); the reference does it
  on whole arrays with a reshape and a transposition. At the ideal values every operation is the exact one and a change
  of float format is the identity, so the two are the same expression index by index — `Cert.BranchMlp.result`
  (Proof/Spec.lean) — and no property of the inputs is used.

  * The three frames: the kernel's two are the generated frame certificates; the reference's is its run with the
    result dropped.
  * The idealization rewrote nothing, so its conjunct is `True`.
  * The kernel's run ends with the result array at `result` of the arguments (Proof/KernelArray.lean: each grid point's
    block is `result` read through the block, and the 64 blocks cover the array); the reference's run ends at its
    operations' composed term, which is `result` of its arguments (Proof/RefValue.lean); the arguments agree.
-/
import proofs.«115626_j48782238548455_1_alg».proof.Defs
import proofs.«115626_j48782238548455_1_alg».proof.Proof.Gen.Kernel
import proofs.«115626_j48782238548455_1_alg».proof.Proof.Gen.Kernel.Skeleton
import proofs.«115626_j48782238548455_1_alg».proof.Proof.Gen.Kernel.Launch
import proofs.«115626_j48782238548455_1_alg».proof.Proof.Gen.Kernel.Points
import proofs.«115626_j48782238548455_1_alg».proof.Proof.Gen.Kernel.Frame
import proofs.«115626_j48782238548455_1_alg».proof.Proof.Gen.KernelIdeal
import proofs.«115626_j48782238548455_1_alg».proof.Proof.Gen.KernelIdeal.Skeleton
import proofs.«115626_j48782238548455_1_alg».proof.Proof.Gen.KernelIdeal.Launch
import proofs.«115626_j48782238548455_1_alg».proof.Proof.Gen.KernelIdeal.Points
import proofs.«115626_j48782238548455_1_alg».proof.Proof.Gen.KernelIdeal.Frame
import proofs.«115626_j48782238548455_1_alg».proof.Proof.Gen.ReferenceIdeal
import proofs.«115626_j48782238548455_1_alg».proof.Proof.Gen.Pre_finite_inputs
import proofs.«115626_j48782238548455_1_alg».proof.Proof.Gen.KernelIdeal.Value
import proofs.«115626_j48782238548455_1_alg».proof.Proof.RefRunP
import proofs.«115626_j48782238548455_1_alg».proof.Proof.RefReadP
import proofs.«115626_j48782238548455_1_alg».proof.Proof.RefValue
import proofs.«115626_j48782238548455_1_alg».proof.Proof.KernelArray
import Idealize.ShloMosaic.Adequacy
import Idealize.ShloMosaic.Init

noncomputable section

namespace Cert.Proof

open Idealize.ShloMosaic Idealize.ShloMosaic.TcCoe Idealize.SL.Sem

/-- The kernel as printed runs, faults nowhere and leaves its arguments: the generated frame certificate. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- Both runs end with the result array at `result` of the argument arrays, and the arguments agree. -/
theorem algebraic : Cert.algebraic_KernelIdeal_ReferenceIdeal := by
  intro m ρ m' ρ' _ hagree
  refine ⟨fun c => Cert.BranchMlp.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    Cert.BranchMlp.Kernel.kernel_run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9, h10⟩ := hagree c
  rw [Cert.ReferenceIdeal.ReadP.val_main_v64_eq, Cert.BranchMlp.Ref.ref_eq, h0, h1, h2, h3, h4, h5, h6, h7, h8, h9, h10]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
